-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S8x1024 : Shape := ⟨2, ![8, 1024]⟩

abbrev nBuf : Space → Nat
  | .hbm => 50
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .bf16⟩
  | .hbm, ⟨17, _⟩ => ⟨S4096x1024, .f32⟩
  | .hbm, ⟨18, _⟩ => ⟨S8x1x1024, .f32⟩
  | .hbm, ⟨19, _⟩ => ⟨S8x1x1024, .f32⟩
  | .hbm, ⟨20, _⟩ => ⟨S8x1024, .f32⟩
  | .hbm, ⟨21, _⟩ => ⟨S_, .f32⟩
  | .hbm, ⟨22, _⟩ => ⟨S1024, .f32⟩
  | .hbm, ⟨23, _⟩ => ⟨S8x1024, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bitsLt_bf16_f32 : FTy.bits .bf16 < FTy.bits .f32
  reducesTo_S1024x1024_S1024_d1 : S1024x1024.ReducesTo [1] S1024
  h_S_ : 0 < S_.numel
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S1024 : S512x1024.Reduces [0] S1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S8x1x1024_S8x1024 : S8x1x1024.ShapeCasts S8x1024
  reducesTo_S8x1024_S1024_d0 : S8x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S8x1x1024.size a
  hwx0_7 : ∀ i : grid0.Coords, EltTy.bits .f32 = 32 ∨ (Rect.block (s := S8x1x1024) S1x1x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S1024_d0 : S4096x1024.ReducesTo [0] S1024
  bcast_S_S1024 : S_.BroadcastsInDim S1024 (![] : Fin 0 → Fin S1024.rank)
  bcast_S_S1x1024 : S_.BroadcastsInDim S1x1024 (![] : Fin 0 → Fin S1x1024.rank)
  dot_S4096x1024_S1024x1024_S4096x1024_1_1_0_0_n_n_wf : DotDims.WF S4096x1024 S1024x1024 S4096x1024 [1] [1] [0] [0] [] []

variable [Facts₀]

def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf

class Facts : Prop extends Facts₀ where

variable [Facts]
-- ==== Proof.Spec.lean ====
/-
  The mathematics of the certificate, free of any program.

  For an input `x : [4096, 1024]`, three weight matrices `c1 c2 c3 : [1024, 1024]`, a bias matrix of the same shape, and
  two vectors `gamma beta : [1024]`, the value before normalisation is

      y (b, o) = sum_i x(b,i) c1(o,i) + sum_i x(b,i)^2 c2(o,i) + sum_i x(b,i)^3 c3(o,i) + sum_i bias(o,i),

  and the result is y normalised down each column o over the 4096 rows: (y - mean) * rsqrt (var + eps) * gamma + beta.
  One program takes the variance as the mean of the squared deviations from the mean; the other accumulates the column
  sums of y and of y*y tile by tile (8 tiles of 512 rows) and takes mean of squares minus squared mean. Everything is an
  extended real; powers are written as the products the programs form, `(x*x)*x`.
-/
import Idealize.ShloMosaic.PureOps.Ideal
import Idealize.ShloMosaic.Lib.ValueIdx

noncomputable section

open scoped BigOperators

namespace Cert.PolyNorm

open Idealize.ShloMosaic Idealize.ShloMosaic.ValueIdx

abbrev SX : Shape := ⟨2, ![4096, 1024]⟩
abbrev SW : Shape := ⟨2, ![1024, 1024]⟩
abbrev SV : Shape := ⟨1, ![1024]⟩
abbrev ST : Shape := ⟨3, ![8, 1, 1024]⟩

/-- Every entry of an array is a real number (neither infinity). -/
def AllReal {s : Shape} (x : s.Idx → EReal) : Prop := ∀ i, ∃ r : ℝ, x i = (r : EReal)

/-- The number of rows, as the f32 word both programs divide by (4096.0). -/
def nRows : EReal := Ideal.ofBits .f32 0x45800000#32
/-- The f32 word nearest 1e-5 that both programs add to the variance. -/
def eps : EReal := Ideal.ofBits .f32 0x3727C5AC#32

/-- The value before normalisation at row `b`, column `o`. -/
def Y (x : SX.Idx → EReal) (c1 c2 c3 bias : SW.Idx → EReal) (b : Fin 4096) (o : Fin 1024) : EReal :=
  (∑ i : Fin 1024, x (ix2 b i) * c1 (ix2 o i))
    + (∑ i : Fin 1024, (x (ix2 b i) * x (ix2 b i)) * c2 (ix2 o i))
    + (∑ i : Fin 1024, ((x (ix2 b i) * x (ix2 b i)) * x (ix2 b i)) * c3 (ix2 o i))
    + ∑ i : Fin 1024, bias (ix2 o i)

/-- Row `r` of tile `g` (tiles of 512 consecutive rows). -/
def row (g : Fin 8) (r : Fin 512) : Fin 4096 := ⟨512 * g.val + r.val, by omega⟩

/-- Column mean: the column sum over all rows divided by the number of rows. -/
def mean (y : Fin 4096 → Fin 1024 → EReal) (o : Fin 1024) : EReal :=
  Ideal.div (∑ b : Fin 4096, y b o) nRows

/-- Column variance as the mean of the squared deviations from the column mean. -/
def varDev (y : Fin 4096 → Fin 1024 → EReal) (o : Fin 1024) : EReal :=
  Ideal.div (∑ b : Fin 4096, (y b o - mean y o) * (y b o - mean y o)) nRows

/-- Column mean with the column sum taken tile by tile. -/
def meanT (y : Fin 4096 → Fin 1024 → EReal) (o : Fin 1024) : EReal :=
  Ideal.div (∑ g : Fin 8, ∑ r : Fin 512, y (row g r) o) nRows

/-- Column variance as mean of squares minus squared mean, the sums taken tile by tile. -/
def varT (y : Fin 4096 → Fin 1024 → EReal) (o : Fin 1024) : EReal :=
  Ideal.div (∑ g : Fin 8, ∑ r : Fin 512, y (row g r) o * y (row g r) o) nRows - meanT y o * meanT y o

/-- The affine normalisation both programs end with, for a given column mean `M` and variance `V`. -/
def normalize (y : Fin 4096 → Fin 1024 → EReal) (M V : Fin 1024 → EReal) (gamma beta : SV.Idx → EReal)
    (b : Fin 4096) (o : Fin 1024) : EReal :=
  (y b o - M o) * Ideal.rsqrt (V o + eps) * gamma (ix1 o) + beta (ix1 o)

/-- The whole result array, variance by deviations. -/
def outDev (x : SX.Idx → EReal) (c1 c2 c3 bias : SW.Idx → EReal) (gamma beta : SV.Idx → EReal) : SX.Idx → EReal :=
  fun j => normalize (Y x c1 c2 c3 bias) (mean (Y x c1 c2 c3 bias)) (varDev (Y x c1 c2 c3 bias)) gamma beta (j 0) (j 1)

/-- The whole result array, variance by tile sums. -/
def outTile (x : SX.Idx → EReal) (c1 c2 c3 bias : SW.Idx → EReal) (gamma beta : SV.Idx → EReal) : SX.Idx → EReal :=
  fun j => normalize (Y x c1 c2 c3 bias) (meanT (Y x c1 c2 c3 bias)) (varT (Y x c1 c2 c3 bias)) gamma beta (j 0) (j 1)

/-- The array of values before normalisation. -/
def yArr (x : SX.Idx → EReal) (c1 c2 c3 bias : SW.Idx → EReal) : SX.Idx → EReal :=
  fun j => Y x c1 c2 c3 bias (j 0) (j 1)

/-- Per tile and column, the sum of y over the tile's rows. -/
def tileSum (y : Fin 4096 → Fin 1024 → EReal) : ST.Idx → EReal :=
  fun j => ∑ r : Fin 512, y (row (j 0) r) (j 2)

/-- Per tile and column, the sum of y*y over the tile's rows. -/
def tileSumSq (y : Fin 4096 → Fin 1024 → EReal) : ST.Idx → EReal :=
  fun j => ∑ r : Fin 512, y (row (j 0) r) (j 2) * y (row (j 0) r) (j 2)

/-- What the normalisation makes of a y array and the two arrays of tile sums. -/
def fromTiles (y : SX.Idx → EReal) (s1 s2 : ST.Idx → EReal) (gamma beta : SV.Idx → EReal) : SX.Idx → EReal :=
  fun j =>
    let M : EReal := Ideal.div (∑ g : Fin 8, s1 (ix3 g 0 (j 1))) nRows
    let V : EReal := Ideal.div (∑ g : Fin 8, s2 (ix3 g 0 (j 1))) nRows - M * M
    (y j - M) * Ideal.rsqrt (V + eps) * gamma (ix1 (j 1)) + beta (ix1 (j 1))

theorem fromTiles_tiles (x : SX.Idx → EReal) (c1 c2 c3 bias : SW.Idx → EReal) (gamma beta : SV.Idx → EReal) :
    fromTiles (yArr x c1 c2 c3 bias) (tileSum (Y x c1 c2 c3 bias)) (tileSumSq (Y x c1 c2 c3 bias)) gamma beta
      = outTile x c1 c2 c3 bias gamma beta := rfl

end Cert.PolyNorm

end
-- ==== Proof.Algebra.lean ====
/-
  The two ways of taking a column's variance agree on real data.

  For a column of 4096 real numbers y_b with sum S and sum of squares Q, put m = S / 4096. Then

      (sum_b (y_b - m)^2) / 4096  =  Q / 4096 - m^2,

  because sum_b (y_b - m)^2 = Q - 2 m S + 4096 m^2 and S = 4096 m. On the extended reals the identity needs every y_b to
  be a real number (it moves a factor across a sum and cancels), and y_b is real as soon as the arguments are: it is a
  finite sum of products of their entries. The tile-by-tile column sums are the column sums: the 8 tiles of 512 rows
  enumerate the 4096 rows once each. So the result with the variance taken from tile sums of y and y*y is the result
  with the variance taken as the mean squared deviation.
-/
import proofs.«112312_j22634477650637_2_alg».proof.Proof.Spec
import Mathlib.Algebra.BigOperators.Fin
import Mathlib.Logic.Equiv.Fin.Basic
import Mathlib.Tactic

noncomputable section

open scoped BigOperators

namespace Cert.PolyNorm

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word 0x45800000 is the real number 4096 = 2^12. -/
theorem nRows_real : nRows = ((4096 : ℝ) : EReal) := by
  unfold nRows
  simp [Ideal.ofBits, Ideal.ieee, -EReal.coe_mul]
  norm_num

/-- The 8 tiles of 512 rows enumerate the 4096 rows once each. -/
theorem sum_rows {M : Type*} [AddCommMonoid M] (f : Fin 4096 → M) :
    ∑ g : Fin 8, ∑ r : Fin 512, f (row g r) = ∑ b : Fin 4096, f b := by
  rw [← Fintype.sum_prod_type']
  refine Fintype.sum_equiv ((finProdFinEquiv (m := 8) (n := 512)).trans (finCongr (by norm_num))) _ _ ?_
  rintro ⟨g, r⟩
  refine congrArg f (Fin.ext ?_)
  simp [row, finProdFinEquiv]
  omega

/-- The variance identity on real columns. -/
theorem var_identity (y : Fin 4096 → ℝ) :
    (∑ b, (y b - (∑ b, y b) * (1 / 4096)) * (y b - (∑ b, y b) * (1 / 4096))) * (1 / 4096)
      = (∑ b, y b * y b) * (1 / 4096) - ((∑ b, y b) * (1 / 4096)) * ((∑ b, y b) * (1 / 4096)) := by
  set S := ∑ b, y b with hS
  set m := S * (1 / 4096) with hm
  have h : ∀ b, (y b - m) * (y b - m) = y b * y b - 2 * m * y b + m * m := fun b => by ring
  simp_rw [h]
  rw [Finset.sum_add_distrib, Finset.sum_sub_distrib, ← Finset.mul_sum, Finset.sum_const, Finset.card_univ,
    Fintype.card_fin, nsmul_eq_mul, ← hS]
  rw [hm]
  push_cast
  ring

/-- The value before normalisation, over the reals. -/
def Yr (x : SX.Idx → ℝ) (c1 c2 c3 bias : SW.Idx → ℝ) (b : Fin 4096) (o : Fin 1024) : ℝ :=
  (∑ i : Fin 1024, x (ix2 b i) * c1 (ix2 o i))
    + (∑ i : Fin 1024, (x (ix2 b i) * x (ix2 b i)) * c2 (ix2 o i))
    + (∑ i : Fin 1024, ((x (ix2 b i) * x (ix2 b i)) * x (ix2 b i)) * c3 (ix2 o i))
    + ∑ i : Fin 1024, bias (ix2 o i)

/-- On real arguments the value before normalisation is a real number: a finite sum of products of reals. -/
theorem Y_coe (x : SX.Idx → ℝ) (c1 c2 c3 bias : SW.Idx → ℝ) (b : Fin 4096) (o : Fin 1024) :
    Y (fun i => (x i : EReal)) (fun i => (c1 i : EReal)) (fun i => (c2 i : EReal)) (fun i => (c3 i : EReal))
        (fun i => (bias i : EReal)) b o
      = ((Yr x c1 c2 c3 bias b o : ℝ) : EReal) := by
  unfold Y Yr
  simp only [EReal.coe_add, coe_sum, EReal.coe_mul]

/-- The column sum taken tile by tile is the column sum: the two means are one. -/
theorem meanT_eq_mean (y : Fin 4096 → Fin 1024 → EReal) : meanT y = mean y := by
  funext o
  unfold meanT mean
  exact congrArg (fun s => Ideal.div s nRows) (sum_rows (fun b => y b o))

/-- The tile-by-tile variance, with the tiles gathered. -/
theorem varT_eq (y : Fin 4096 → Fin 1024 → EReal) (o : Fin 1024) :
    varT y o = Ideal.div (∑ b : Fin 4096, y b o * y b o) nRows - mean y o * mean y o := by
  unfold varT
  rw [meanT_eq_mean]
  exact congrArg (fun s => Ideal.div s nRows - mean y o * mean y o) (sum_rows (fun b => y b o * y b o))

/-- The mean of a real column is the real mean. -/
theorem mean_coe (y : Fin 4096 → Fin 1024 → ℝ) (o : Fin 1024) :
    mean (fun b o => (y b o : EReal)) o = (((∑ b : Fin 4096, y b o) * (1 / 4096) : ℝ) : EReal) := by
  unfold mean
  rw [nRows_real, Ideal.div_coe (by norm_num : (4096 : ℝ) ≠ 0), ← coe_sum, ← EReal.coe_mul]

/-- On a real column, mean of squares minus squared mean is the mean squared deviation. -/
theorem varT_eq_varDev (y : Fin 4096 → Fin 1024 → ℝ) (o : Fin 1024) :
    varT (fun b o => (y b o : EReal)) o = varDev (fun b o => (y b o : EReal)) o := by
  rw [varT_eq]
  unfold varDev
  rw [mean_coe, nRows_real, Ideal.div_coe (by norm_num : (4096 : ℝ) ≠ 0), Ideal.div_coe (by norm_num : (4096 : ℝ) ≠ 0)]
  simp only [← EReal.coe_mul, ← EReal.coe_sub, ← coe_sum]
  exact congrArg _ (var_identity (fun b => y b o)).symm

/-- With real arguments (gamma and beta may be anything) the two results are one array. -/
theorem outTile_eq_outDev (x : SX.Idx → EReal) (c1 c2 c3 bias : SW.Idx → EReal) (gamma beta : SV.Idx → EReal)
    (hx : AllReal x) (h1 : AllReal c1) (h2 : AllReal c2) (h3 : AllReal c3) (hb : AllReal bias) :
    outTile x c1 c2 c3 bias gamma beta = outDev x c1 c2 c3 bias gamma beta := by
  choose xr hxr using hx
  choose c1r hc1 using h1
  choose c2r hc2 using h2
  choose c3r hc3 using h3
  choose br hbr using hb
  obtain rfl : x = fun i => (xr i : EReal) := funext hxr
  obtain rfl : c1 = fun i => (c1r i : EReal) := funext hc1
  obtain rfl : c2 = fun i => (c2r i : EReal) := funext hc2
  obtain rfl : c3 = fun i => (c3r i : EReal) := funext hc3
  obtain rfl : bias = fun i => (br i : EReal) := funext hbr
  have hY : Y (fun i => (xr i : EReal)) (fun i => (c1r i : EReal)) (fun i => (c2r i : EReal)) (fun i => (c3r i : EReal))
      (fun i => (br i : EReal)) = fun b o => ((Yr xr c1r c2r c3r br b o : ℝ) : EReal) :=
    funext fun b => funext fun o => Y_coe xr c1r c2r c3r br b o
  unfold outTile outDev
  rw [hY]
  funext j
  unfold normalize
  rw [meanT_eq_mean, varT_eq_varDev (Yr xr c1r c2r c3r br) (j 1)]

end Cert.PolyNorm

end
-- ==== Proof.FiniteInputs.lean ====
import proofs.«112312_j22634477650637_2_alg».proof.Proof.Gen.Pre_finite_inputs
import proofs.«112312_j22634477650637_2_alg».proof.Proof.Spec
import Idealize.ShloMosaic.Lib.ReduceAll
import Idealize.ShloMosaic.Lib.ValueIdx
import Idealize.ShloMosaic.PureOps.Ideal.Laws

/-!
  From the precondition to real entries.

  The precondition is the conjunction, over the seven arguments, of "every entry x of the argument has |x| < +infinity",
  each conjunct being an `and`-reduction over all axes of the entrywise comparison. Over the extended reals |x| is
  max x (-x), and max x (-x) < +infinity excludes both infinities: so every entry of every argument is a real number.
-/

noncomputable section

namespace Cert.Pre_finite_inputs.Finite

open Idealize.ShloMosaic Cert.Pre_finite_inputs

/-- The f32 word 0x7F800000 is +infinity. -/
theorem ofBits_inf_f32 : Ideal.ofBits .f32 0x7F800000#32 = (⊤ : EReal) := by
  simp [Ideal.ofBits, Ideal.ieee]

/-- An extended real whose absolute value max x (-x) is below +infinity is a real number. -/
theorem real_of_abs_lt_top (x : EReal)
    (h : Ideal.cmp .olt (max x (-x)) (Ideal.ofBits .f32 0x7F800000#32) = 1#1) : ∃ r : ℝ, x = (r : EReal) := by
  rw [ofBits_inf_f32] at h
  have hlt : max x (-x) < (⊤ : EReal) := by
    by_contra hn
    simp [Ideal.cmp, hn] at h
  induction x using EReal.rec with
  | bot => simp at hlt
  | coe r => exact ⟨r, rfl⟩
  | top => simp at hlt

instance : Subsingleton S_.Idx := ⟨fun a b => funext fun d => d.elim0⟩

/-- If the `and` over all entries of "|a i| < +infinity" is 1, every entry of `a` is real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1) :
    Cert.PolyNorm.AllReal a := by
  intro i
  have hi := Host.reduce_andi_all _ init hr hu ValueIdx.ix0 e i
  exact real_of_abs_lt_top (a i) hi

/-- Under the precondition (all seven "every |entry| < +infinity" bits are 1) every entry of every argument is real. -/
theorem allReal_of_pre (a0 : FVec Ideal S4096x1024 .f32) (a1 a2 a3 a4 : FVec Ideal S1024x1024 .f32) (a5 a6 : FVec Ideal S1024 .f32)
    (h : fn (F := Ideal) a0 a1 a2 a3 a4 a5 a6 = fun _ => 1#1) :
    Cert.PolyNorm.AllReal a0 ∧ Cert.PolyNorm.AllReal a1 ∧ Cert.PolyNorm.AllReal a2 ∧ Cert.PolyNorm.AllReal a3
      ∧ Cert.PolyNorm.AllReal a4 ∧ Cert.PolyNorm.AllReal a5 ∧ Cert.PolyNorm.AllReal a6 := by
  have h0 := congrFun h ValueIdx.ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5,
    allReal_of_all a6 _ _ _ _ e6⟩

end Cert.Pre_finite_inputs.Finite

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.KerPay.lean ====
/-
  The three values the kernel body stores, read entry by entry.

  The body takes a block `x` of 512 rows of 1024 lanes, three square coefficient matrices and one row of
  biases. Its first stored value is, at row `p` and lane `q`, the cubic polynomial form
      (∑ d, x(p,d) · w₁(d,q)) + (∑ d, x(p,d)² · w₂(d,q)) + (∑ d, x(p,d)³ · w₃(d,q)) + bias(q).
  Its second stored value is, at lane `q`, the sum of the first over the 512 rows; the third is the sum of the
  squares of the first over the 512 rows. All three are over the extended reals, where widening and narrowing
  of the number format are the identity.
-/
import proofs.«112312_j22634477650637_2_alg».proof.Proof.Gen.KernelIdeal.Skeleton
import proofs.«112312_j22634477650637_2_alg».proof.Proof.LibMatmulRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- A lane-wise sum over the 512 rows followed by two added leading unit axes reads, at lane `q`, the sum of the
    operand's column `q`. -/
theorem colsum_apply (v : FVec Ideal S512x1024 .f32) (q : Fin 1024) :
    shapeCast S1x1x1024 (shapeCast S1x1024
        (multiReduction .add [0] S1024 v 0x00000000#32 reduces_S512x1024_S1024 (.inl rfl) rfl)
        shapeCasts_S1024_S1x1024) shapeCasts_S1x1024_S1x1x1024 (ix3 (0 : Fin 1) (0 : Fin 1) q)
      = ∑ r : Fin 512, v (ix2 r q) := by
  refine (shapeCast_ab_1ab_apply _ shapeCasts_S1x1024_S1x1x1024 (0 : Fin 1) (0 : Fin 1) q).trans ?_
  refine (shapeCast_a_1a_apply _ shapeCasts_S1024_S1x1024 (0 : Fin 1) q).trans ?_
  refine (Ideal.multiReduction_add_single v 0x00000000#32 reduces_S512x1024_S1024 (.inl rfl) rfl (ix1 q)).trans ?_
  refine Finset.sum_congr rfl fun r _ => congrArg v (funext fun ax => Fin.ext ?_)
  match ax with
  | ⟨0, _⟩ => rfl
  | ⟨1, _⟩ => rfl

/-- The first stored value at row `p`, lane `q`: the cubic polynomial form plus the bias of lane `q`. -/
theorem pay1_apply (x0 : Vec Ideal S512x1024 .bf16) (w1 w2 w3 : Vec Ideal S1024x1024 .bf16)
    (bv : Vec Ideal S1x1024 .f32) (p : Fin 512) (q : Fin 1024) :
    k0_pay1 x0 w1 w2 w3 bv (ix2 p q)
      = (∑ d : Fin 1024, x0 (ix2 p d) * w1 (ix2 d q)) + (∑ d : Fin 1024, (x0 (ix2 p d) * x0 (ix2 p d)) * w2 (ix2 d q))
        + (∑ d : Fin 1024, ((x0 (ix2 p d) * x0 (ix2 p d)) * x0 (ix2 p d)) * w3 (ix2 d q)) + bv (ix2 (0 : Fin 1) q) := by
  -- the same-shape casts are the identity
  have hx : ∀ d : Fin 1024, shapeCast S512x1024 x0 shapeCasts_S512x1024_S512x1024 (ix2 p d) = x0 (ix2 p d) :=
    fun d => congrFun (shapeCast_self x0 _) _
  have hw : ∀ (w : Vec Ideal S1024x1024 .bf16) (d : Fin 1024),
      shapeCast S1024x1024 w shapeCasts_S1024x1024_S1024x1024 (ix2 d q) = w (ix2 d q) :=
    fun w d => congrFun (shapeCast_self w _) _
  unfold k0_pay1
  refine (addf_apply _ _ (ix2 p q)).trans ?_
  refine congrArg₂ (· + ·) ?_ ?_
  · refine (addf_apply _ _ (ix2 p q)).trans ?_
    refine congrArg₂ (· + ·) ?_ ?_
    · refine (addf_apply _ _ (ix2 p q)).trans ?_
      refine congrArg₂ (· + ·) ?_ ?_
      · refine (matmul_ix2_apply dot_S512x1024_S1024x1024_S512x1024_1_0_0_1_n_n rfl rfl rfl rfl rfl rfl none _ _ p q).trans ?_
        exact Finset.sum_congr rfl fun d _ => congrArg₂ (· * ·) (hx d) (hw w1 d)
      · refine (matmul_ix2_apply dot_S512x1024_S1024x1024_S512x1024_1_0_0_1_n_n rfl rfl rfl rfl rfl rfl none _ _ p q).trans ?_
        exact Finset.sum_congr rfl fun d _ => congrArg₂ (· * ·) (congrArg₂ (· * ·) (hx d) (hx d)) (hw w2 d)
    · refine (matmul_ix2_apply dot_S512x1024_S1024x1024_S512x1024_1_0_0_1_n_n rfl rfl rfl rfl rfl rfl none _ _ p q).trans ?_
      exact Finset.sum_congr rfl fun d _ =>
        congrArg₂ (· * ·) (congrArg₂ (· * ·) (congrArg₂ (· * ·) (hx d) (hx d)) (hx d)) (hw w3 d)
  · refine (broadcastTo_1b_ab_apply _ broadcasts_S1x1024_S512x1024 p q).trans ?_
    exact congrFun (shapeCast_self bv _) _

/-- The second stored value at lane `q`: the sum of the first over the 512 rows. -/
theorem pay2_apply (x0 : Vec Ideal S512x1024 .bf16) (w1 w2 w3 : Vec Ideal S1024x1024 .bf16)
    (bv : Vec Ideal S1x1024 .f32) (q : Fin 1024) :
    k0_pay2 x0 w1 w2 w3 bv (ix3 (0 : Fin 1) (0 : Fin 1) q) = ∑ r : Fin 512, k0_pay1 x0 w1 w2 w3 bv (ix2 r q) :=
  colsum_apply (k0_pay1 x0 w1 w2 w3 bv) q

/-- The third stored value at lane `q`: the sum of the squares of the first over the 512 rows. -/
theorem pay3_apply (x0 : Vec Ideal S512x1024 .bf16) (w1 w2 w3 : Vec Ideal S1024x1024 .bf16)
    (bv : Vec Ideal S1x1024 .f32) (q : Fin 1024) :
    k0_pay3 x0 w1 w2 w3 bv (ix3 (0 : Fin 1) (0 : Fin 1) q)
      = ∑ r : Fin 512, k0_pay1 x0 w1 w2 w3 bv (ix2 r q) * k0_pay1 x0 w1 w2 w3 bv (ix2 r q) :=
  colsum_apply (mulf (k0_pay1 x0 w1 w2 w3 bv) (k0_pay1 x0 w1 w2 w3 bv)) q

end Cert.KernelIdeal.Pay

end
-- ==== Proof.KerArrays.lean ====
/-
  What the three output arrays of the tiled computation hold once all eight tiles have been processed, as whole-array
  functions of the program's arguments.

  The computation walks over the 4096 rows of the input `x` in eight tiles of 512 consecutive rows. At tile `t` it
  reads rows `512 t … 512 t + 511` of `x`, the three coefficient matrices transposed (entry `(d, q)` of the k-th is
  `c_k(q, d)`), and one row of biases whose entry `q` is the sum over `i` of `bias(q, i)` (a sum started from zero).
  It writes three things: rows `512 t … 512 t + 511` of the first output, which at row `p` of the tile and lane `q` is

      y(512 t + p, q) = ∑_d x(512t+p,d) c1(q,d) + ∑_d x(512t+p,d)² c2(q,d) + ∑_d x(512t+p,d)³ c3(q,d) + ∑_i bias(q,i);

  entry `(t, 0, q)` of the second output, the sum of `y(512 t + r, q)` over the tile's rows `r`; and entry `(t, 0, q)`
  of the third, the sum of the squares `y(512 t + r, q)²`. The eight row tiles partition the 4096 rows, and the eight
  entries `(t, 0, ·)` partition the first axis of the two `[8, 1, 1024]` arrays, so after the last tile the first output
  is the whole array `y`, the second the per-tile column sums of `y`, the third the per-tile column sums of `y²`.
  Everything is over the extended reals, where narrowing the number format is the identity.
-/
import proofs.«112312_j22634477650637_2_alg».proof.Proof.Gen.KernelIdeal.Frame
import proofs.«112312_j22634477650637_2_alg».proof.Proof.Spec
import proofs.«112312_j22634477650637_2_alg».proof.Proof.KerPay
import proofs.«112312_j22634477650637_2_alg».proof.Proof.LibMatmulRead
import Idealize.ShloMosaic.Lib.Pipeline.Value
import Idealize.ShloMosaic.Lib.IdealHost
import Idealize.ShloMosaic.Lib.Tactic
import Idealize.ShloMosaic.PureOps.Ideal.Laws

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays the tiles are cut from -/

/-- The input `x`, the three coefficient matrices and the bias matrix, as arrays of extended reals. -/
abbrev argX (c : Dev nD) : PolyNorm.SX.Idx → EReal := m ((c.tc : Thread nD τ).loc main_arg0)
abbrev argC1 (c : Dev nD) : PolyNorm.SW.Idx → EReal := m ((c.tc : Thread nD τ).loc main_arg1)
abbrev argC2 (c : Dev nD) : PolyNorm.SW.Idx → EReal := m ((c.tc : Thread nD τ).loc main_arg2)
abbrev argC3 (c : Dev nD) : PolyNorm.SW.Idx → EReal := m ((c.tc : Thread nD τ).loc main_arg3)
abbrev argB (c : Dev nD) : PolyNorm.SW.Idx → EReal := m ((c.tc : Thread nD τ).loc main_arg4)

/-- The array the row tiles are cut from is the first argument: narrowing to the shorter format changes no value. -/
theorem rows_array (c : Dev nD) :
    (V m c main_v8 : S4096x1024.Idx → EReal) = argX m c := by
  show StableHlo.after hostOps0 (fun b => m (c, b)) (Proc.devRef .tc main_v8) = _
  after_results
  rfl

/-- The first coefficient array as the tiles read it: the transpose of the second argument. -/
theorem coef1_array (c : Dev nD) :
    (V m c main_v1 : S1024x1024.Idx → EReal)
      = transpose S1024x1024 [1, 0] (argC1 m c) transposes_S1024x1024_S1024x1024_1_0 := by
  show StableHlo.after hostOps0 (fun b => m (c, b)) (Proc.devRef .tc main_v1) = _
  after_results
  rfl

/-- The second coefficient array as the tiles read it: the transpose of the third argument. -/
theorem coef2_array (c : Dev nD) :
    (V m c main_v3 : S1024x1024.Idx → EReal)
      = transpose S1024x1024 [1, 0] (argC2 m c) transposes_S1024x1024_S1024x1024_1_0 := by
  show StableHlo.after hostOps0 (fun b => m (c, b)) (Proc.devRef .tc main_v3) = _
  after_results
  rfl

/-- The third coefficient array as the tiles read it: the transpose of the fourth argument. -/
theorem coef3_array (c : Dev nD) :
    (V m c main_v5 : S1024x1024.Idx → EReal)
      = transpose S1024x1024 [1, 0] (argC3 m c) transposes_S1024x1024_S1024x1024_1_0 := by
  show StableHlo.after hostOps0 (fun b => m (c, b)) (Proc.devRef .tc main_v5) = _
  after_results
  rfl

/-- The bias row as the tiles read it: the row sums of the fifth argument, started from the zero word, laid out as one row. -/
theorem bias_array (c : Dev nD) :
    (V m c main_v7 : S1x1024.Idx → EReal)
      = shapeCast S1x1024 (Host.reduceAdd (F := Ideal) (φ := .f32) (argB m c)
          (constant (F := Ideal) S_ .f32 0x00000000#32) reducesTo_S1024x1024_S1024_d1 h_S_) shapeCasts_S1024_S1x1024 := by
  show StableHlo.after hostOps0 (fun b => m (c, b)) (Proc.devRef .tc main_v7) = _
  after_results
  rfl

/-- Entry `q` of the bias row is the sum over `i` of `bias(q, i)`: the sum starts from zero, and zero plus a sum is the sum. -/
theorem bias_array_apply (c : Dev nD) (q : Fin 1024) :
    (V m c main_v7 : S1x1024.Idx → EReal) (ix2 (0 : Fin 1) q)
      = ∑ i : Fin 1024, argB m c (ix2 q i) := by
  rw [bias_array]
  refine (shapeCast_apply _ _ (ix2 (0 : Fin 1) q) (ix1 q) ?_).trans ?_
  · rw [Shape.rowMajor_val_one, Shape.rowMajor_val_two]
    show q.val = 0 * 1024 + q.val
    omega
  refine (hostReduceAdd_apply _ _ _ _ _).trans ?_
  refine (Ideal.hostReduceAdd_single reducesTo_S1024x1024_S1024_d1 (by decide) _ _ _).trans ?_
  refine (congrArg (· + _) Ideal.ofBits_zero_f32).trans ?_
  refine (zero_add _).trans ?_
  refine Finset.sum_congr rfl fun i _ => congrArg _ (funext fun a => Fin.ext ?_)
  match a with
  | ⟨0, _⟩ => rfl
  | ⟨1, _⟩ => rfl

/-! ## Which block each tile reads and writes -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at tile `t`, decided over the eight tiles: the row tile of `x` and of the first output is tile `t`
    itself (all lanes); the coefficient matrices and the bias row are read whole; the two small outputs are written at
    `(t, 0, 0)`. -/
theorem block_indices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- Entry `(p, d)` of the tile of `x` at tile `t` is `x` at row `512 t + p`, lane `d`. -/
theorem rows_block_apply (c : Dev nD) (t : Fin cfg0.N) (p : Fin 512) (d : Fin 1024) (b : Fin 4096)
    (hb : b.val = 512 * t.val + p.val) :
    (iblk m c 0 t : Vec Ideal S512x1024 .bf16) (ix2 p d) = argX m c (ix2 b d) := by
  obtain ⟨⟨e0, e1⟩, -⟩ := block_indices t
  show (V m c main_v8 : S4096x1024.Idx → EReal) (((cfg0.win 0).blk t).view.emb (ix2 p d)) = _
  rw [rows_array]
  refine congrArg _ (funext fun a => Fin.ext ?_)
  match a with
  | ⟨0, _⟩ => show win0_0.index t (0 : Fin 2) * 512 + 1 * p.val = b.val; rw [e0, hb]; omega
  | ⟨1, _⟩ => show win0_0.index t (1 : Fin 2) * 1024 + 1 * d.val = d.val; rw [e1]; omega

/-- Entry `(d, q)` of the first coefficient block is `c1(q, d)`. -/
theorem coef1_block_apply (c : Dev nD) (t : Fin cfg0.N) (d q : Fin 1024) :
    (iblk m c 1 t : Vec Ideal S1024x1024 .bf16) (ix2 d q) = argC1 m c (ix2 q d) := by
  obtain ⟨-, ⟨e0, e1⟩, -⟩ := block_indices t
  show (V m c main_v1 : S1024x1024.Idx → EReal) (((cfg0.win 1).blk t).view.emb (ix2 d q)) = _
  rw [coef1_array]
  refine Eq.trans (congrArg _ (funext fun a => Fin.ext ?_)) (transpose_ab_ba_apply (argC1 m c) _ d q)
  match a with
  | ⟨0, _⟩ => show win0_1.index t (0 : Fin 2) * 1024 + 1 * d.val = d.val; rw [e0]; omega
  | ⟨1, _⟩ => show win0_1.index t (1 : Fin 2) * 1024 + 1 * q.val = q.val; rw [e1]; omega

/-- Entry `(d, q)` of the second coefficient block is `c2(q, d)`. -/
theorem coef2_block_apply (c : Dev nD) (t : Fin cfg0.N) (d q : Fin 1024) :
    (iblk m c 2 t : Vec Ideal S1024x1024 .bf16) (ix2 d q) = argC2 m c (ix2 q d) := by
  obtain ⟨-, -, ⟨e0, e1⟩, -⟩ := block_indices t
  show (V m c main_v3 : S1024x1024.Idx → EReal) (((cfg0.win 2).blk t).view.emb (ix2 d q)) = _
  rw [coef2_array]
  refine Eq.trans (congrArg _ (funext fun a => Fin.ext ?_)) (transpose_ab_ba_apply (argC2 m c) _ d q)
  match a with
  | ⟨0, _⟩ => show win0_2.index t (0 : Fin 2) * 1024 + 1 * d.val = d.val; rw [e0]; omega
  | ⟨1, _⟩ => show win0_2.index t (1 : Fin 2) * 1024 + 1 * q.val = q.val; rw [e1]; omega

/-- Entry `(d, q)` of the third coefficient block is `c3(q, d)`. -/
theorem coef3_block_apply (c : Dev nD) (t : Fin cfg0.N) (d q : Fin 1024) :
    (iblk m c 3 t : Vec Ideal S1024x1024 .bf16) (ix2 d q) = argC3 m c (ix2 q d) := by
  obtain ⟨-, -, -, ⟨e0, e1⟩, -⟩ := block_indices t
  show (V m c main_v5 : S1024x1024.Idx → EReal) (((cfg0.win 3).blk t).view.emb (ix2 d q)) = _
  rw [coef3_array]
  refine Eq.trans (congrArg _ (funext fun a => Fin.ext ?_)) (transpose_ab_ba_apply (argC3 m c) _ d q)
  match a with
  | ⟨0, _⟩ => show win0_3.index t (0 : Fin 2) * 1024 + 1 * d.val = d.val; rw [e0]; omega
  | ⟨1, _⟩ => show win0_3.index t (1 : Fin 2) * 1024 + 1 * q.val = q.val; rw [e1]; omega

/-- Entry `(0, q)` of the bias block is the sum over `i` of `bias(q, i)`. -/
theorem bias_block_apply (c : Dev nD) (t : Fin cfg0.N) (q : Fin 1024) :
    (iblk m c 4 t : Vec Ideal S1x1024 .f32) (ix2 (0 : Fin 1) q) = ∑ i : Fin 1024, argB m c (ix2 q i) := by
  obtain ⟨-, -, -, -, ⟨e0, e1⟩, -⟩ := block_indices t
  show (V m c main_v7 : S1x1024.Idx → EReal) (((cfg0.win 4).blk t).view.emb (ix2 (0 : Fin 1) q)) = _
  refine Eq.trans (congrArg _ (funext fun a => Fin.ext ?_)) (bias_array_apply m c q)
  match a with
  | ⟨0, _⟩ => show win0_4.index t (0 : Fin 2) * 1 + 1 * 0 = 0; rw [e0]
  | ⟨1, _⟩ => show win0_4.index t (1 : Fin 2) * 1024 + 1 * q.val = q.val; rw [e1]; omega

/-- The cubic form of the tile's blocks at `(p, q)` is `y` at row `b = 512 t + p`, lane `q`: each factor read where it sits. -/
theorem tile_value (c : Dev nD) (t : Fin cfg0.N) (p : Fin 512) (q : Fin 1024) (b : Fin 4096)
    (hb : b.val = 512 * t.val + p.val) :
    k0_pay1 (iblk m c 0 t) (iblk m c 1 t) (iblk m c 2 t) (iblk m c 3 t) (iblk m c 4 t) (ix2 p q)
      = PolyNorm.Y (argX m c) (argC1 m c) (argC2 m c) (argC3 m c) (argB m c) b q := by
  refine (Pay.pay1_apply (iblk m c 0 t) (iblk m c 1 t) (iblk m c 2 t) (iblk m c 3 t) (iblk m c 4 t) p q).trans ?_
  unfold PolyNorm.Y
  simp only [rows_block_apply m c t p _ b hb, coef1_block_apply m c t, coef2_block_apply m c t, coef3_block_apply m c t,
    bias_block_apply m c t]

/-! ## The first output: the whole array `y` -/

/-- What tile `t` writes back to the first output is its block of the array `y`: rows `512 t … 512 t + 511`. -/
theorem y_block (c : Dev nD) (t : Fin cfg0.N) :
    (dats m 0 c).flushed 5 t = ((cfg0.win 5).blk t).view.read (Elt Ideal)
      (PolyNorm.yArr (argX m c) (argC1 m c) (argC2 m c) (argC3 m c) (argB m c)) := by
  show (cfg0.win 5).cut (grid0.coords t) ((dats m 0 c).after 5 t) = _
  rw [after0_5]
  unfold out0_5
  rw [View.canon_unit_zero zeros2]
  simp only [View.ld_unit_zero (S := S512x1024) zeros2, View.ld_unit_zero (S := S1024x1024) zeros2,
    View.ld_unit_zero (S := S1x1024) zeros2]
  obtain ⟨-, -, -, -, -, ⟨e0, e1⟩, -⟩ := block_indices t
  funext j
  obtain ⟨p, q, rfl⟩ : ∃ (p : Fin 512) (q : Fin 1024), j = ix2 p q := ⟨j 0, j 1, eq_ix2 j⟩
  have hN : cfg0.N = 8 := N_0
  have ht : t.val < 8 := hN ▸ t.isLt
  have hi : ((cfg0.win 5).blk t).view.emb (ix2 p q) = (ix2 (⟨512 * t.val + p.val, by omega⟩ : Fin 4096) q : S4096x1024.Idx) :=
    funext fun a => Fin.ext (by
      match a with
      | ⟨0, _⟩ => show win0_5.index t (0 : Fin 2) * 512 + 1 * p.val = 512 * t.val + p.val; rw [e0]; omega
      | ⟨1, _⟩ => show win0_5.index t (1 : Fin 2) * 1024 + 1 * q.val = q.val; rw [e1]; omega)
  show k0_pay1 (iblk m c 0 t) (iblk m c 1 t) (iblk m c 2 t) (iblk m c 3 t) (iblk m c 4 t) (ix2 p q)
    = PolyNorm.yArr (argX m c) (argC1 m c) (argC2 m c) (argC3 m c) (argB m c) (((cfg0.win 5).blk t).view.emb (ix2 p q))
  refine (tile_value m c t p q ⟨512 * t.val + p.val, by omega⟩ rfl).trans ?_
  exact (congrArg (PolyNorm.yArr (argX m c) (argC1 m c) (argC2 m c) (argC3 m c) (argB m c)) hi).symm

/-- An index of the first output is in tile `t`'s block iff each coordinate is in the block's range on its axis. -/
theorem mem_y_block (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v9_0).slice (win0_5.rect t)).set ↔ _
  rw [View.set_slice_whole, Rect.mem_set_unit]
  exact Iff.rfl

/-- Every row of the first output lies in some tile: row `r` in tile `r / 512`. -/
theorem y_cover (i : S4096x1024.Idx) :
    ∃ t : Fin cfg0.N, (cfg0.win 5).flush t = true ∧ i ∈ ((cfg0.win 5).blk t).view.set := by
  have hN : cfg0.N = 8 := N_0
  have hi0 : (i 0).val < 4096 := (i 0).isLt
  have hi1 : (i 1).val < 1024 := (i 1).isLt
  refine ⟨⟨(i 0).val / 512, by omega⟩, flush0_5 _, ?_⟩
  rw [mem_y_block]
  obtain ⟨-, -, -, -, -, ⟨e0, e1⟩, -⟩ := block_indices ⟨(i 0).val / 512, by omega⟩
  intro a
  match a with
  | ⟨0, _⟩ =>
    show win0_5.index ⟨(i 0).val / 512, _⟩ (0 : Fin 2) * 512 ≤ (i 0).val
      ∧ (i 0).val < win0_5.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, _⟩ (1 : Fin 2) * 1024 ≤ (i 1).val
      ∧ (i 1).val < win0_5.index ⟨(i 0).val / 512, _⟩ (1 : Fin 2) * 1024 + 1024
    rw [e1]; omega

/-- After the eight tiles the first output is the array `y`. -/
theorem final5 (c : Dev nD) : (Gen.dats m 0 c).arrAt 5 cfg0.N
    = PolyNorm.yArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (dats m 0 c).arrAt_eq_of_cover 5 (PolyNorm.yArr (argX m c) (argC1 m c) (argC2 m c) (argC3 m c) (argB m c))
    (fun t _ => y_block m c t) y_cover

/-! ## The second output: the column sums of `y` over each tile -/

/-- What tile `t` writes back to the second output is entry `(t, 0, ·)` of the per-tile column sums of `y`: at lane `q`, the sum of `y(512 t + r, q)` over the tile's rows `r`. -/
theorem sum_block (c : Dev nD) (t : Fin cfg0.N) :
    (dats m 0 c).flushed 6 t = ((cfg0.win 6).blk t).view.read (Elt Ideal)
      (PolyNorm.tileSum (PolyNorm.Y (argX m c) (argC1 m c) (argC2 m c) (argC3 m c) (argB m c))) := by
  show (cfg0.win 6).cut (grid0.coords t) ((dats m 0 c).after 6 t) = _
  rw [after0_6]
  unfold out0_6
  rw [View.canon_unit_zero zeros3]
  simp only [View.ld_unit_zero (S := S512x1024) zeros2, View.ld_unit_zero (S := S1024x1024) zeros2,
    View.ld_unit_zero (S := S1x1024) zeros2]
  obtain ⟨-, -, -, -, -, -, ⟨e0, e1, e2⟩, -⟩ := block_indices t
  funext j
  obtain ⟨a, b, q, rfl⟩ : ∃ (a : Fin 1) (b : Fin 1) (q : Fin 1024), j = ix3 a b q := ⟨j 0, j 1, j 2, eq_ix3 j⟩
  obtain rfl : a = 0 := Subsingleton.elim _ _
  obtain rfl : b = 0 := Subsingleton.elim _ _
  have hN : cfg0.N = 8 := N_0
  have ht : t.val < 8 := hN ▸ t.isLt
  have hi : ((cfg0.win 6).blk t).view.emb (ix3 (0 : Fin 1) (0 : Fin 1) q)
      = (ix3 (⟨t.val, ht⟩ : Fin 8) (0 : Fin 1) q : S8x1x1024.Idx) :=
    funext fun a => Fin.ext (by
      match a with
      | ⟨0, _⟩ => show win0_6.index t (0 : Fin 3) * 1 + 1 * 0 = t.val; rw [e0]; omega
      | ⟨1, _⟩ => show win0_6.index t (1 : Fin 3) * 1 + 1 * 0 = 0; rw [e1]
      | ⟨2, _⟩ => show win0_6.index t (2 : Fin 3) * 1024 + 1 * q.val = q.val; rw [e2]; omega)
  show k0_pay2 (iblk m c 0 t) (iblk m c 1 t) (iblk m c 2 t) (iblk m c 3 t) (iblk m c 4 t) (ix3 (0 : Fin 1) (0 : Fin 1) q)
    = PolyNorm.tileSum (PolyNorm.Y (argX m c) (argC1 m c) (argC2 m c) (argC3 m c) (argB m c))
        (((cfg0.win 6).blk t).view.emb (ix3 (0 : Fin 1) (0 : Fin 1) q))
  refine (Pay.pay2_apply (iblk m c 0 t) (iblk m c 1 t) (iblk m c 2 t) (iblk m c 3 t) (iblk m c 4 t) q).trans ?_
  refine Eq.trans ?_ (congrArg (PolyNorm.tileSum (PolyNorm.Y (argX m c) (argC1 m c) (argC2 m c) (argC3 m c) (argB m c))) hi).symm
  show _ = ∑ r : Fin 512, PolyNorm.Y (argX m c) (argC1 m c) (argC2 m c) (argC3 m c) (argB m c) (PolyNorm.row ⟨t.val, ht⟩ r) q
  refine Finset.sum_congr rfl fun r _ => ?_
  rw [tile_value m c t r q (PolyNorm.row ⟨t.val, ht⟩ r) rfl]

/-- An index of this output is in tile `t`'s block iff each coordinate is in the block's range on its axis. -/
theorem mem_sum_block (t : Fin cfg0.N) (i : S8x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v9_1).slice (win0_6.rect t)).set ↔ _
  rw [View.set_slice_whole, Rect.mem_set_unit]
  exact Iff.rfl

/-- Every entry `(g, 0, q)` lies in tile `g`'s block. -/
theorem sum_cover (i : S8x1x1024.Idx) :
    ∃ t : Fin cfg0.N, (cfg0.win 6).flush t = true ∧ i ∈ ((cfg0.win 6).blk t).view.set := by
  have hN : cfg0.N = 8 := N_0
  have hi0 : (i 0).val < 8 := (i 0).isLt
  have hi1 : (i 1).val < 1 := (i 1).isLt
  have hi2 : (i 2).val < 1024 := (i 2).isLt
  refine ⟨⟨(i 0).val, by omega⟩, flush0_6 _, ?_⟩
  rw [mem_sum_block]
  obtain ⟨-, -, -, -, -, -, ⟨e0, e1, e2⟩, -⟩ := block_indices ⟨(i 0).val, by omega⟩
  intro a
  match a with
  | ⟨0, _⟩ =>
    show win0_6.index ⟨(i 0).val, _⟩ (0 : Fin 3) * 1 ≤ (i 0).val ∧ (i 0).val < win0_6.index ⟨(i 0).val, _⟩ (0 : Fin 3) * 1 + 1
    rw [e0]; show (i 0).val * 1 ≤ (i 0).val ∧ (i 0).val < (i 0).val * 1 + 1; omega
  | ⟨1, _⟩ =>
    show win0_6.index ⟨(i 0).val, _⟩ (1 : Fin 3) * 1 ≤ (i 1).val ∧ (i 1).val < win0_6.index ⟨(i 0).val, _⟩ (1 : Fin 3) * 1 + 1
    rw [e1]; omega
  | ⟨2, _⟩ =>
    show win0_6.index ⟨(i 0).val, _⟩ (2 : Fin 3) * 1024 ≤ (i 2).val ∧ (i 2).val < win0_6.index ⟨(i 0).val, _⟩ (2 : Fin 3) * 1024 + 1024
    rw [e2]; omega

/-- After the eight tiles the second output holds, per tile and lane, the sum of `y` over the tile's rows. -/
theorem final6 (c : Dev nD) : (Gen.dats m 0 c).arrAt 6 cfg0.N
    = PolyNorm.tileSum (PolyNorm.Y (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) :=
  (dats m 0 c).arrAt_eq_of_cover 6 (PolyNorm.tileSum (PolyNorm.Y (argX m c) (argC1 m c) (argC2 m c) (argC3 m c) (argB m c)))
    (fun t _ => sum_block m c t) sum_cover

/-! ## The third output: the column sums of `y²` over each tile -/

/-- What tile `t` writes back to the third output is entry `(t, 0, ·)` of the per-tile column sums of `y²`: at lane `q`, the sum of `y(512 t + r, q)²` over the tile's rows `r`. -/
theorem sumsq_block (c : Dev nD) (t : Fin cfg0.N) :
    (dats m 0 c).flushed 7 t = ((cfg0.win 7).blk t).view.read (Elt Ideal)
      (PolyNorm.tileSumSq (PolyNorm.Y (argX m c) (argC1 m c) (argC2 m c) (argC3 m c) (argB m c))) := by
  show (cfg0.win 7).cut (grid0.coords t) ((dats m 0 c).after 7 t) = _
  rw [after0_7]
  unfold out0_7
  rw [View.canon_unit_zero zeros3]
  simp only [View.ld_unit_zero (S := S512x1024) zeros2, View.ld_unit_zero (S := S1024x1024) zeros2,
    View.ld_unit_zero (S := S1x1024) zeros2]
  obtain ⟨-, -, -, -, -, -, -, ⟨e0, e1, e2⟩⟩ := block_indices t
  funext j
  obtain ⟨a, b, q, rfl⟩ : ∃ (a : Fin 1) (b : Fin 1) (q : Fin 1024), j = ix3 a b q := ⟨j 0, j 1, j 2, eq_ix3 j⟩
  obtain rfl : a = 0 := Subsingleton.elim _ _
  obtain rfl : b = 0 := Subsingleton.elim _ _
  have hN : cfg0.N = 8 := N_0
  have ht : t.val < 8 := hN ▸ t.isLt
  have hi : ((cfg0.win 7).blk t).view.emb (ix3 (0 : Fin 1) (0 : Fin 1) q)
      = (ix3 (⟨t.val, ht⟩ : Fin 8) (0 : Fin 1) q : S8x1x1024.Idx) :=
    funext fun a => Fin.ext (by
      match a with
      | ⟨0, _⟩ => show win0_7.index t (0 : Fin 3) * 1 + 1 * 0 = t.val; rw [e0]; omega
      | ⟨1, _⟩ => show win0_7.index t (1 : Fin 3) * 1 + 1 * 0 = 0; rw [e1]
      | ⟨2, _⟩ => show win0_7.index t (2 : Fin 3) * 1024 + 1 * q.val = q.val; rw [e2]; omega)
  show k0_pay3 (iblk m c 0 t) (iblk m c 1 t) (iblk m c 2 t) (iblk m c 3 t) (iblk m c 4 t) (ix3 (0 : Fin 1) (0 : Fin 1) q)
    = PolyNorm.tileSumSq (PolyNorm.Y (argX m c) (argC1 m c) (argC2 m c) (argC3 m c) (argB m c))
        (((cfg0.win 7).blk t).view.emb (ix3 (0 : Fin 1) (0 : Fin 1) q))
  refine (Pay.pay3_apply (iblk m c 0 t) (iblk m c 1 t) (iblk m c 2 t) (iblk m c 3 t) (iblk m c 4 t) q).trans ?_
  refine Eq.trans ?_ (congrArg (PolyNorm.tileSumSq (PolyNorm.Y (argX m c) (argC1 m c) (argC2 m c) (argC3 m c) (argB m c))) hi).symm
  show _ = ∑ r : Fin 512, PolyNorm.Y (argX m c) (argC1 m c) (argC2 m c) (argC3 m c) (argB m c) (PolyNorm.row ⟨t.val, ht⟩ r) q * PolyNorm.Y (argX m c) (argC1 m c) (argC2 m c) (argC3 m c) (argB m c) (PolyNorm.row ⟨t.val, ht⟩ r) q
  refine Finset.sum_congr rfl fun r _ => ?_
  rw [tile_value m c t r q (PolyNorm.row ⟨t.val, ht⟩ r) rfl]

/-- An index of this output is in tile `t`'s block iff each coordinate is in the block's range on its axis. -/
theorem mem_sumsq_block (t : Fin cfg0.N) (i : S8x1x1024.Idx) :
    i ∈ ((cfg0.win 7).blk t).view.set ↔ ∀ a : Fin 3, win0_7.index t a * S1x1x1024.size a ≤ (i a).val
      ∧ (i a).val < win0_7.index t a * S1x1x1024.size a + S1x1x1024.size a := by
  show i ∈ ((View.whole main_v9_2).slice (win0_7.rect t)).set ↔ _
  rw [View.set_slice_whole, Rect.mem_set_unit]
  exact Iff.rfl

/-- Every entry `(g, 0, q)` lies in tile `g`'s block. -/
theorem sumsq_cover (i : S8x1x1024.Idx) :
    ∃ t : Fin cfg0.N, (cfg0.win 7).flush t = true ∧ i ∈ ((cfg0.win 7).blk t).view.set := by
  have hN : cfg0.N = 8 := N_0
  have hi0 : (i 0).val < 8 := (i 0).isLt
  have hi1 : (i 1).val < 1 := (i 1).isLt
  have hi2 : (i 2).val < 1024 := (i 2).isLt
  refine ⟨⟨(i 0).val, by omega⟩, flush0_7 _, ?_⟩
  rw [mem_sumsq_block]
  obtain ⟨-, -, -, -, -, -, -, ⟨e0, e1, e2⟩⟩ := block_indices ⟨(i 0).val, by omega⟩
  intro a
  match a with
  | ⟨0, _⟩ =>
    show win0_7.index ⟨(i 0).val, _⟩ (0 : Fin 3) * 1 ≤ (i 0).val ∧ (i 0).val < win0_7.index ⟨(i 0).val, _⟩ (0 : Fin 3) * 1 + 1
    rw [e0]; show (i 0).val * 1 ≤ (i 0).val ∧ (i 0).val < (i 0).val * 1 + 1; omega
  | ⟨1, _⟩ =>
    show win0_7.index ⟨(i 0).val, _⟩ (1 : Fin 3) * 1 ≤ (i 1).val ∧ (i 1).val < win0_7.index ⟨(i 0).val, _⟩ (1 : Fin 3) * 1 + 1
    rw [e1]; omega
  | ⟨2, _⟩ =>
    show win0_7.index ⟨(i 0).val, _⟩ (2 : Fin 3) * 1024 ≤ (i 2).val ∧ (i 2).val < win0_7.index ⟨(i 0).val, _⟩ (2 : Fin 3) * 1024 + 1024
    rw [e2]; omega

/-- After the eight tiles the third output holds, per tile and lane, the sum of `y²` over the tile's rows. -/
theorem final7 (c : Dev nD) : (Gen.dats m 0 c).arrAt 7 cfg0.N
    = PolyNorm.tileSumSq (PolyNorm.Y (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) :=
  (dats m 0 c).arrAt_eq_of_cover 7 (PolyNorm.tileSumSq (PolyNorm.Y (argX m c) (argC1 m c) (argC2 m c) (argC3 m c) (argB m c)))
    (fun t _ => sumsq_block m c t) sumsq_cover

end Cert.KernelIdeal.Arrays

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.KerTail.lean ====
/-
  The normalisation after the tiled pass, read at an index.

  After the region the program holds an array `y : [4096, 1024]` and two arrays `s1 s2 : [8, 1, 1024]` of per-tile
  column sums (of y and of y*y). From them and two vectors `gamma beta : [1024]` it computes, for every row b and
  column o,

      M o = (sum over the 8 tiles of s1) / 4096,     V o = (sum over the 8 tiles of s2) / 4096 - M o * M o,
      out (b, o) = (y (b, o) - M o) * rsqrt (V o + eps) * gamma o + beta o,

  by dropping the unit axis of each tile array, summing down the tile axis from zero, dividing by the word of 4096,
  and repeating each vector of length 1024 down the 4096 rows before the entrywise products and sums. This module
  names that composition as one function of the five arrays, shows that the result buffer holds it, and reads it at
  an index as the closed form above. All values are extended reals.
-/
import proofs.«112312_j22634477650637_2_alg».proof.Proof.Gen.KernelIdeal.Frame
import proofs.«112312_j22634477650637_2_alg».proof.Proof.Spec
import proofs.«112312_j22634477650637_2_alg».proof.Proof.LibHostRead
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tail

open Idealize.ShloMosaic Idealize.ShloMosaic.ValueIdx Idealize.ShloMosaic.TcCoe
open Idealize.SL Idealize.SL.Sem
open Cert.KernelIdeal Cert.KernelIdeal.Gen

/-- A `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The sum over the eight tiles of a `[8, 1, 1024]` array of per-tile column sums, as the program forms it: the
    unit axis dropped, then a sum down the tile axis from the zero word. -/
def colSum (s : FVec Ideal S8x1x1024 .f32) : FVec Ideal S1024 .f32 :=
  Host.reduceAdd (F := Ideal) (shapeCast S8x1024 s shapeCasts_S8x1x1024_S8x1024)
    (constant (F := Ideal) S_ .f32 0x00000000#32) reducesTo_S8x1024_S1024_d0 h_S_

/-- The column sums divided by the word of the number of rows. -/
def colMean (s : FVec Ideal S8x1x1024 .f32) : FVec Ideal S1024 .f32 :=
  Host.divf (F := Ideal) (colSum s) (broadcastInDim S1024 ![] bcast_S_S1024 (constant (F := Ideal) S_ .f32 0x45800000#32))

/-- A vector of length 1024 repeated down the 4096 rows. -/
def rows (v : FVec Ideal S1024 .f32) : FVec Ideal S4096x1024 .f32 :=
  broadcastInDim S4096x1024 ![0, 1] bcast_S1x1024_S4096x1024_0_1 (broadcastInDim S1x1024 ![1] bcast_S1024_S1x1024_1 v)

/-- The normalisation as the program composes it from the array `y`, the two arrays of per-tile column sums and the
    two vectors. -/
def tailFn (y : FVec Ideal S4096x1024 .f32) (s1 s2 : FVec Ideal S8x1x1024 .f32) (gamma beta : FVec Ideal S1024 .f32) :
    FVec Ideal S4096x1024 .f32 :=
  addf
    (mulf
      (mulf (subf y (rows (colMean s1)))
        (rows (Host.rsqrt (F := Ideal)
          (addf (subf (colMean s2) (mulf (colMean s1) (colMean s1)))
            (broadcastInDim S1024 ![] bcast_S_S1024 (constant (F := Ideal) S_ .f32 0x3727C5AC#32))))))
      (rows gamma))
    (rows beta)

theorem colSum_apply (s : FVec Ideal S8x1x1024 .f32) (o : Fin 1024) :
    colSum s (ix1 o) = ∑ g : Fin 8, s (ix3 g (0 : Fin 1) o) := by
  unfold colSum
  simp only [Host.reduceAdd]
  refine (Ideal.hostReduceAdd_single reducesTo_S8x1024_S1024_d0 (by decide) _ _ (ix1 o)).trans ?_
  rw [constant_apply, Ideal.ofBits_zero_f32, zero_add]
  refine Finset.sum_congr rfl fun g _ => ?_
  have e : (Shape.Reduces.lift (s := S8x1024) (t := S1024) (a := 0) (by decide) (ix1 o) g) = ix2 g o := by
    funext ax; refine Fin.ext ?_
    match ax with
    | ⟨0, _⟩ => rfl
    | ⟨1, _⟩ => rfl
  refine (congrArg (shapeCast S8x1024 s shapeCasts_S8x1x1024_S8x1024) e).trans ?_
  exact shapeCast_a1b_ab_apply (a := 8) (b := 1024) s shapeCasts_S8x1x1024_S8x1024 g o

theorem colMean_apply (s : FVec Ideal S8x1x1024 .f32) (o : Fin 1024) :
    colMean s (ix1 o) = Ideal.div (∑ g : Fin 8, s (ix3 g (0 : Fin 1) o)) PolyNorm.nRows := by
  show Ideal.div (colSum s (ix1 o))
      (broadcastInDim S1024 ![] bcast_S_S1024 (constant (F := Ideal) S_ .f32 0x45800000#32) (ix1 o)) = _
  rw [colSum_apply, HostRead.scalar_bcast_apply]
  rfl

theorem rows_apply (v : FVec Ideal S1024 .f32) (b : Fin 4096) (o : Fin 1024) : rows v (ix2 b o) = v (ix1 o) :=
  HostRead.bias_rows_apply (a := 4096) (b := 1024) bcast_S1024_S1x1024_1 bcast_S1x1024_S4096x1024_0_1 v b o

theorem tailFn_eq (y : FVec Ideal S4096x1024 .f32) (s1 s2 : FVec Ideal S8x1x1024 .f32) (gamma beta : FVec Ideal S1024 .f32) :
    tailFn y s1 s2 gamma beta = PolyNorm.fromTiles y s1 s2 gamma beta := by
  funext j
  obtain ⟨b, o, rfl⟩ : ∃ (b : Fin 4096) (o : Fin 1024), j = ix2 b o := ⟨j 0, j 1, eq_ix2 j⟩
  show (y (ix2 b o) - rows (colMean s1) (ix2 b o))
        * rows (Host.rsqrt (F := Ideal)
          (addf (subf (colMean s2) (mulf (colMean s1) (colMean s1)))
            (broadcastInDim S1024 ![] bcast_S_S1024 (constant (F := Ideal) S_ .f32 0x3727C5AC#32)))) (ix2 b o)
        * rows gamma (ix2 b o) + rows beta (ix2 b o) = _
  rw [rows_apply, rows_apply, rows_apply, rows_apply]
  show (y (ix2 b o) - colMean s1 (ix1 o))
        * Ideal.rsqrt ((colMean s2 (ix1 o) - colMean s1 (ix1 o) * colMean s1 (ix1 o))
            + broadcastInDim S1024 ![] bcast_S_S1024 (constant (F := Ideal) S_ .f32 0x3727C5AC#32) (ix1 o))
        * gamma (ix1 o) + beta (ix1 o) = _
  rw [colMean_apply, colMean_apply, HostRead.scalar_bcast_apply]
  rfl

/-- What the lines after the region leave in the result buffer: the normalisation of the region's three result arrays
    by the two vectors as launched. -/
theorem tail_eq (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 (F := Ideal) m) [hostOps1 (F := Ideal)] c main_v34
      = Cert.PolyNorm.fromTiles ((dats 0 c).arrAt 5 cfg0.N) ((dats 0 c).arrAt 6 cfg0.N) ((dats 0 c).arrAt 7 cfg0.N)
            (m ((c.tc : Thread nD τ).loc main_arg5)) (m ((c.tc : Thread nD τ).loc main_arg6)) := by
  have h5 : Pipeline.withArrays (cfgs 0).spec c (V0 (F := Ideal) m c) (fun w => (dats 0 c).arrAt w (cfgs 0).N)
      (Proc.devRef .tc main_v9_0) = (dats 0 c).arrAt 5 cfg0.N :=
    Pipeline.withArrays_arr spec0 launch0.win.arr_inj c _ _ 5
  have h6 : Pipeline.withArrays (cfgs 0).spec c (V0 (F := Ideal) m c) (fun w => (dats 0 c).arrAt w (cfgs 0).N)
      (Proc.devRef .tc main_v9_1) = (dats 0 c).arrAt 6 cfg0.N :=
    Pipeline.withArrays_arr spec0 launch0.win.arr_inj c _ _ 6
  have h7 : Pipeline.withArrays (cfgs 0).spec c (V0 (F := Ideal) m c) (fun w => (dats 0 c).arrAt w (cfgs 0).N)
      (Proc.devRef .tc main_v9_2) = (dats 0 c).arrAt 7 cfg0.N :=
    Pipeline.withArrays_arr spec0 launch0.win.arr_inj c _ _ 7
  have hg : Pipeline.withArrays (cfgs 0).spec c (V0 (F := Ideal) m c) (fun w => (dats 0 c).arrAt w (cfgs 0).N)
      (Proc.devRef .tc main_arg5) = m ((c.tc : Thread nD τ).loc main_arg5) :=
    (Pipeline.withArrays_of_ne _ c (V0 m c) _ main_arg5
      (by exact (by decide : ∀ w, Pipeline.arrRef spec0 w ≠ main_arg5))).trans (V_main_arg5 m c)
  have hb : Pipeline.withArrays (cfgs 0).spec c (V0 (F := Ideal) m c) (fun w => (dats 0 c).arrAt w (cfgs 0).N)
      (Proc.devRef .tc main_arg6) = m ((c.tc : Thread nD τ).loc main_arg6) :=
    (Pipeline.withArrays_of_ne _ c (V0 m c) _ main_arg6
      (by exact (by decide : ∀ w, Pipeline.arrRef spec0 w ≠ main_arg6))).trans (V_main_arg6 m c)
  unfold Pipeline.afterTail₀
  show StableHlo.after hostOps1 _ (Proc.devRef .tc main_v34) = _
  after_results_simp
  rw [h5, h6, h7, hg, hb]
  exact tailFn_eq _ _ _ _ _

end Cert.KernelIdeal.Tail

end
-- ==== Proof.KerRun.lean ====
/-
  The idealized kernel program's run, with its result array named.

  Three facts about the arrays the tiled region leaves — the array of values before normalisation, and the two
  arrays of per-tile column sums of those values and of their squares — and one fact about the host lines after
  the region — that they form, from those three arrays and the two vectors, the affine normalisation — are taken
  as hypotheses. From them: every weakly fair execution of the program terminates, its result array is the
  normalised array with the variance taken by tile sums, and its seven argument arrays end as they began.
-/
import proofs.«112312_j22634477650637_2_alg».proof.Proof.Gen.KernelIdeal.Frame
import proofs.«112312_j22634477650637_2_alg».proof.Proof.Spec

noncomputable section

namespace Cert.KernelIdeal.Run

open Idealize.ShloMosaic Idealize.ShloMosaic.TcCoe Idealize.SL.Sem
open Cert.KernelIdeal Cert.KernelIdeal.Gen

/-- The run of the idealized kernel program: the result array is `outTile` of the seven argument arrays, and the
    argument arrays are unchanged. -/
theorem run_of
    (hfinal5 : ∀ (m : (ℓ : Loc nD τ sig) → Buf (Elt Ideal) ℓ) (c : Dev nD), (Gen.dats m 0 c).arrAt 5 cfg0.N
        = Cert.PolyNorm.yArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (hfinal6 : ∀ (m : (ℓ : Loc nD τ sig) → Buf (Elt Ideal) ℓ) (c : Dev nD), (Gen.dats m 0 c).arrAt 6 cfg0.N
        = Cert.PolyNorm.tileSum (Cert.PolyNorm.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
    (hfinal7 : ∀ (m : (ℓ : Loc nD τ sig) → Buf (Elt Ideal) ℓ) (c : Dev nD), (Gen.dats m 0 c).arrAt 7 cfg0.N
        = Cert.PolyNorm.tileSumSq (Cert.PolyNorm.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
    (htail : ∀ (m : (ℓ : Loc nD τ sig) → Buf (Elt Ideal) ℓ)
        (dats : (p : Fin 1) → (c : Dev nD) → Pipeline.Dat τ (Elt Ideal) Unit ℕ (UR sig nD τ) ℕ (cfgs p) c) (c : Dev nD),
        Pipeline.afterTail₀ cfgs dats 0 (V0 m) [hostOps1] c main_v34
          = Cert.PolyNorm.fromTiles ((dats 0 c).arrAt 5 cfg0.N) ((dats 0 c).arrAt 6 cfg0.N) ((dats 0 c).arrAt 7 cfg0.N)
              (m ((c.tc : Thread nD τ).loc main_arg5)) (m ((c.tc : Thread nD τ).loc main_arg6)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
          = Cert.PolyNorm.outTile (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (Gen.run_main m ρ)
  refine ((h c).2 main_v34 (Pipeline.mem_restRefs_of main_v34 (by decide) (by decide))).trans ?_
  refine (htail m (dats m) c).trans ?_
  rw [hfinal5 m c, hfinal6 m c, hfinal7 m c]
  exact Cert.PolyNorm.fromTiles_tiles _ _ _ _ _ _ _

end Cert.KernelIdeal.Run

end
-- ==== Proof.RefTerm.lean ====
/-
  The reference program's result as one composed expression of its seven argument arrays, at the exact
  (extended-real) values: the polynomial layer `y`, the column mean `meanV`, the column variance `varV` (the mean of
  the squared deviations from the column mean, guarded by a test that the number of rows minus zero is positive), and the
  normalised, scaled and shifted result `out`. Definitions only.
-/
import proofs.«112312_j22634477650637_2_alg».proof.Proof.Gen.ReferenceIdeal
import Idealize.ShloMosaic.PureOps.Ideal

noncomputable section

namespace Cert.ReferenceIdeal.RefTerm

open Idealize.ShloMosaic Idealize.SL.Sem
open Facts₀ Facts

/-- The layer before normalisation: three products contracting the second axis of both operands, of `x`, `x*x` and
    `(x*x)*x`, summed, plus the row sums of the bias matrix spread down the rows. -/
def y (x : FVec Ideal S4096x1024 .f32) (c1 c2 c3 bias : FVec Ideal S1024x1024 .f32) : FVec Ideal S4096x1024 .f32 :=
  addf
    (addf
      (addf
        (Host.dotGeneral (F := Ideal) dot_S4096x1024_S1024x1024_S4096x1024_1_1_0_0_n_n none x c1)
        (Host.dotGeneral (F := Ideal) dot_S4096x1024_S1024x1024_S4096x1024_1_1_0_0_n_n none (mulf x x) c2))
      (Host.dotGeneral (F := Ideal) dot_S4096x1024_S1024x1024_S4096x1024_1_1_0_0_n_n none (mulf (mulf x x) x) c3))
    (broadcastInDim S4096x1024 ![0, 1] bcast_S1x1024_S4096x1024_0_1
      (broadcastInDim S1x1024 ![1] bcast_S1024_S1x1024_1
        (Host.reduceAdd (F := Ideal) bias (constant (F := Ideal) S_ .f32 0x00000000#32)
          reducesTo_S1024x1024_S1024_d1 h_S_)))

/-- The column mean: the column sums divided by 4096.0. -/
def meanV (y : FVec Ideal S4096x1024 .f32) : FVec Ideal S1024 .f32 :=
  Host.divf (F := Ideal)
    (Host.reduceAdd (F := Ideal) y (constant (F := Ideal) S_ .f32 0x00000000#32) reducesTo_S4096x1024_S1024_d0 h_S_)
    (broadcastInDim S1024 ![] bcast_S_S1024 (constant (F := Ideal) S_ .f32 0x45800000#32))

/-- The divisor of the variance: 4096.0 minus the float of the integer zero. -/
def count : FVec Ideal S_ .f32 :=
  subf (constant (F := Ideal) S_ .f32 0x45800000#32) (sitofp (F := Ideal) .f32 (constantI S_ 32 0#32))

/-- The deviations from the column mean, the mean formed as a row `[1, 1024]` and spread down the rows. -/
def centred (y : FVec Ideal S4096x1024 .f32) : FVec Ideal S4096x1024 .f32 :=
  subf y
    (broadcastInDim S4096x1024 ![0, 1] bcast_S1x1024_S4096x1024_0_1
      (Host.divf (F := Ideal)
        (broadcastInDim S1x1024 ![1] bcast_S1024_S1x1024_1
          (Host.reduceAdd (F := Ideal) y (constant (F := Ideal) S_ .f32 0x00000000#32)
            reducesTo_S4096x1024_S1024_d0 h_S_))
        (broadcastInDim S1x1024 ![] bcast_S_S1x1024 (constant (F := Ideal) S_ .f32 0x45800000#32))))

/-- The column variance: where the divisor is positive, the column sums of the squared deviations over the divisor;
    elsewhere the not-a-number word. -/
def varV (y : FVec Ideal S4096x1024 .f32) : FVec Ideal S1024 .f32 :=
  select
    (broadcastInDim S1024 ![] bcast_S_S1024 (cmpf .ogt count (constant (F := Ideal) S_ .f32 0x00000000#32)))
    (Host.divf (F := Ideal)
      (Host.reduceAdd (F := Ideal) (mulf (centred y) (centred y)) (constant (F := Ideal) S_ .f32 0x00000000#32)
        reducesTo_S4096x1024_S1024_d0 h_S_)
      (broadcastInDim S1024 ![] bcast_S_S1024 count))
    (broadcastInDim S1024 ![] bcast_S_S1024 (id (constant (F := Ideal) S_ .f32 0x7FC00000#32)))

/-- The result: `(y - mean) * rsqrt (var + eps) * gamma + beta`, the four vectors spread down the rows. -/
def out (x : FVec Ideal S4096x1024 .f32) (c1 c2 c3 bias : FVec Ideal S1024x1024 .f32)
    (gamma beta : FVec Ideal S1024 .f32) : FVec Ideal S4096x1024 .f32 :=
  addf
    (mulf
      (mulf
        (subf (y x c1 c2 c3 bias)
          (broadcastInDim S4096x1024 ![0, 1] bcast_S1x1024_S4096x1024_0_1
            (broadcastInDim S1x1024 ![1] bcast_S1024_S1x1024_1 (meanV (y x c1 c2 c3 bias)))))
        (broadcastInDim S4096x1024 ![0, 1] bcast_S1x1024_S4096x1024_0_1
          (broadcastInDim S1x1024 ![1] bcast_S1024_S1x1024_1
            (Host.rsqrt (F := Ideal)
              (addf (varV (y x c1 c2 c3 bias))
                (broadcastInDim S1024 ![] bcast_S_S1024 (constant (F := Ideal) S_ .f32 0x3727C5AC#32)))))))
      (broadcastInDim S4096x1024 ![0, 1] bcast_S1x1024_S4096x1024_0_1
        (broadcastInDim S1x1024 ![1] bcast_S1024_S1x1024_1 gamma)))
    (broadcastInDim S4096x1024 ![0, 1] bcast_S1x1024_S4096x1024_0_1
      (broadcastInDim S1x1024 ![1] bcast_S1024_S1x1024_1 beta))

end Cert.ReferenceIdeal.RefTerm

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.RefRun.lean ====
/-
  The reference program's run, read back as one pure term of its arguments.

  The program is a straight line of tensor operations: a cubic polynomial of the input contracted against three weight
  matrices plus a bias matrix's row sums (the value before normalisation), its column mean, its column variance computed
  by an outlined function (mean of squared deviations, divided by a count that a nested outlined selection guards), and
  the affine normalisation. Unfolding the two outlined functions at their calls makes the program a list of fifty-six
  operations; every weakly fair execution then terminates with the result buffer at the composition of the
  operations' functions applied to the arguments' launch contents, and with the arguments unchanged.
-/
import proofs.«112312_j22634477650637_2_alg».proof.Proof.Gen.ReferenceIdeal
import proofs.«112312_j22634477650637_2_alg».proof.Proof.RefTerm
import proofs.«112312_j22634477650637_2_alg».proof.Proof.LibTypedRead
import proofs.«112312_j22634477650637_2_alg».proof.Proof.LibTypedHEq
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the two outlined functions unfolded at their calls: eighteen operations up to the
    value before normalisation and its column mean, the variance function's nineteen and the guarded selection's three
    over their own buffers, and the sixteen of the affine normalisation. -/
abbrev ops : List (HloOp τ sig (Elt F)) :=
  [ binary main_arg0 main_arg0 main_v0 (mulf : (⟨S4096x1024, .f32⟩ : BufTy).Contents (Elt F) → (⟨S4096x1024, .f32⟩ : BufTy).Contents (Elt F) → (⟨S4096x1024, .f32⟩ : BufTy).Contents (Elt F)),
    binary main_v0 main_arg0 main_v1 (mulf : (⟨S4096x1024, .f32⟩ : BufTy).Contents (Elt F) → (⟨S4096x1024, .f32⟩ : BufTy).Contents (Elt F) → (⟨S4096x1024, .f32⟩ : BufTy).Contents (Elt F)),
    binary main_arg0 main_arg1 main_v2 ((fun l r => Host.dotGeneral dot_S4096x1024_S1024x1024_S4096x1024_1_1_0_0_n_n none l r) : (⟨S4096x1024, .f32⟩ : BufTy).Contents (Elt F) → (⟨S1024x1024, .f32⟩ : BufTy).Contents (Elt F) → (⟨S4096x1024, .f32⟩ : BufTy).Contents (Elt F)),
    binary main_v0 main_arg2 main_v3 ((fun l r => Host.dotGeneral dot_S4096x1024_S1024x1024_S4096x1024_1_1_0_0_n_n none l r) : (⟨S4096x1024, .f32⟩ : BufTy).Contents (Elt F) → (⟨S1024x1024, .f32⟩ : BufTy).Contents (Elt F) → (⟨S4096x1024, .f32⟩ : BufTy).Contents (Elt F)),
    binary main_v2 main_v3 main_v4 (addf : (⟨S4096x1024, .f32⟩ : BufTy).Contents (Elt F) → (⟨S4096x1024, .f32⟩ : BufTy).Contents (Elt F) → (⟨S4096x1024, .f32⟩ : BufTy).Contents (Elt F)),
    binary main_v1 main_arg3 main_v5 ((fun l r => Host.dotGeneral dot_S4096x1024_S1024x1024_S4096x1024_1_1_0_0_n_n none l r) : (⟨S4096x1024, .f32⟩ : BufTy).Contents (Elt F) → (⟨S1024x1024, .f32⟩ : BufTy).Contents (Elt F) → (⟨S4096x1024, .f32⟩ : BufTy).Contents (Elt F)),
    binary main_v4 main_v5 main_v6 (addf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x00000000#32),
    binary main_arg4 main_cst main_v7 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    unary main_v7 main_v8 (broadcastInDim S1x1024 ![1] bcast_S1024_S1x1024_1 : (⟨S1024, .f32⟩ : BufTy).Contents (Elt F) → (⟨S1x1024, .f32⟩ : BufTy).Contents (Elt F)),
    unary main_v8 main_v9 (broadcastInDim S4096x1024 ![0, 1] bcast_S1x1024_S4096x1024_0_1 : (⟨S1x1024, .f32⟩ : BufTy).Contents (Elt F) → (⟨S4096x1024, .f32⟩ : BufTy).Contents (Elt F)),
    binary main_v6 main_v9 main_v10 (addf : (⟨S4096x1024, .f32⟩ : BufTy).Contents (Elt F) → (⟨S4096x1024, .f32⟩ : BufTy).Contents (Elt F) → (⟨S4096x1024, .f32⟩ : BufTy).Contents (Elt F)),
    nullary main_cst_0 (constant S_ .f32 0x00000000#32),
    binary main_v10 main_cst_0 main_v11 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    nullary main_cst_1 (constant S_ .f32 0x45800000#32),
    unary main_cst_1 main_v12 (broadcastInDim S1024 ![] bcast_S_S1024 : (⟨S_, .f32⟩ : BufTy).Contents (Elt F) → (⟨S1024, .f32⟩ : BufTy).Contents (Elt F)),
    binary main_v11 main_v12 main_v13 (Host.divf : (⟨S1024, .f32⟩ : BufTy).Contents (Elt F) → (⟨S1024, .f32⟩ : BufTy).Contents (Elt F) → (⟨S1024, .f32⟩ : BufTy).Contents (Elt F)),
    nullary main_c (constantI S_ 32 0#32),
    TRef.nullary main_call0.cst (constant S_ .f32 0x00000000#32),
    TRef.binary (.of main_v10) main_call0.cst main_call0.v0 (fun x v => Host.reduceAdd x v reducesTo_S4096x1024_S1024_d0 h_S_),
    TRef.unary main_call0.v0 main_call0.v1 (broadcastInDim S1x1024 ![1] bcast_S1024_S1x1024_1),
    TRef.nullary main_call0.cst_0 (constant S_ .f32 0x45800000#32),
    TRef.unary main_call0.cst_0 main_call0.v2 (broadcastInDim S1x1024 ![] bcast_S_S1x1024),
    TRef.binary main_call0.v1 main_call0.v2 main_call0.v3 Host.divf,
    TRef.unary main_call0.v3 main_call0.v4 (broadcastInDim S4096x1024 ![0, 1] bcast_S1x1024_S4096x1024_0_1),
    TRef.binary (.of main_v10) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x1024_S1024_d0 h_S_),
    TRef.unary main_call0.v8 main_call0.v10 (broadcastInDim S1024 ![] bcast_S_S1024),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0_call0.v0 id,
    TRef.unary main_call0_call0.v0 main_call0_call0.v1 (broadcastInDim S1024 ![] bcast_S_S1024),
    TRef.ternary main_call0.v12 main_call0.v11 main_call0_call0.v1 main_call0_call0.v2 (fun p a b => select (broadcastInDim S1024 ![] bcast_S_S1024 p) a b),
    unary main_v13 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S4096x1024 ![0, 1] bcast_S1x1024_S4096x1024_0_1 : (⟨S1x1024, .f32⟩ : BufTy).Contents (Elt F) → (⟨S4096x1024, .f32⟩ : BufTy).Contents (Elt F)),
    binary main_v10 main_v16 main_v17 (subf : (⟨S4096x1024, .f32⟩ : BufTy).Contents (Elt F) → (⟨S4096x1024, .f32⟩ : BufTy).Contents (Elt F) → (⟨S4096x1024, .f32⟩ : BufTy).Contents (Elt F)),
    nullary main_cst_2 (constant S_ .f32 0x3727C5AC#32),
    unary main_cst_2 main_v18 (broadcastInDim S1024 ![] bcast_S_S1024 : (⟨S_, .f32⟩ : BufTy).Contents (Elt F) → (⟨S1024, .f32⟩ : BufTy).Contents (Elt F)),
    binary main_v14 main_v18 main_v19 (addf : (⟨S1024, .f32⟩ : BufTy).Contents (Elt F) → (⟨S1024, .f32⟩ : BufTy).Contents (Elt F) → (⟨S1024, .f32⟩ : BufTy).Contents (Elt F)),
    unary main_v19 main_v20 (Host.rsqrt : (⟨S1024, .f32⟩ : BufTy).Contents (Elt F) → (⟨S1024, .f32⟩ : BufTy).Contents (Elt F)),
    unary main_v20 main_v21 (broadcastInDim S1x1024 ![1] bcast_S1024_S1x1024_1 : (⟨S1024, .f32⟩ : BufTy).Contents (Elt F) → (⟨S1x1024, .f32⟩ : BufTy).Contents (Elt F)),
    unary main_v21 main_v22 (broadcastInDim S4096x1024 ![0, 1] bcast_S1x1024_S4096x1024_0_1 : (⟨S1x1024, .f32⟩ : BufTy).Contents (Elt F) → (⟨S4096x1024, .f32⟩ : BufTy).Contents (Elt F)),
    binary main_v17 main_v22 main_v23 (mulf : (⟨S4096x1024, .f32⟩ : BufTy).Contents (Elt F) → (⟨S4096x1024, .f32⟩ : BufTy).Contents (Elt F) → (⟨S4096x1024, .f32⟩ : BufTy).Contents (Elt F)),
    unary main_arg5 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S4096x1024 ![0, 1] bcast_S1x1024_S4096x1024_0_1 : (⟨S1x1024, .f32⟩ : BufTy).Contents (Elt F) → (⟨S4096x1024, .f32⟩ : BufTy).Contents (Elt F)),
    binary main_v23 main_v25 main_v26 (mulf : (⟨S4096x1024, .f32⟩ : BufTy).Contents (Elt F) → (⟨S4096x1024, .f32⟩ : BufTy).Contents (Elt F) → (⟨S4096x1024, .f32⟩ : BufTy).Contents (Elt F)),
    unary main_arg6 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S4096x1024 ![0, 1] bcast_S1x1024_S4096x1024_0_1 : (⟨S1x1024, .f32⟩ : BufTy).Contents (Elt F) → (⟨S4096x1024, .f32⟩ : BufTy).Contents (Elt F)),
    binary main_v26 main_v28 main_v29 (addf : (⟨S4096x1024, .f32⟩ : BufTy).Contents (Elt F) → (⟨S4096x1024, .f32⟩ : BufTy).Contents (Elt F) → (⟨S4096x1024, .f32⟩ : BufTy).Contents (Elt F)) ]

-- fifty-six binds reassociated: the rewrite under the chain recurses once per statement
set_option maxRecDepth 4096 in
/-- The program is that straight line: the outlined functions unfolded at their calls, sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., nullary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## The transports at the three buffers shared between the program and its outlined functions

The outlined functions read the value before normalisation and the integer zero from buffers the program wrote, and
the program reads the variance from a buffer the selection wrote. At these literal buffers the type a reference
carries is the buffer's own, so the transport is the identity. -/

/-- The value before normalisation, read at the type the variance function takes it at, is itself. -/
theorem ofBuf_v10 (v : (main_v10 : Ref sig .tc).ty.Contents (Elt F)) :
    (TRef.of main_v10 : TRef sig ⟨S4096x1024, .f32⟩).ofBuf v = v :=
  eq_of_heq (Cert.TypedRead.ofBuf_heq (TRef.of main_v10 : TRef sig ⟨S4096x1024, .f32⟩) v)

/-- The integer zero, read at the type the variance function takes it at, is itself. -/
theorem ofBuf_c (v : (main_c : Ref sig .tc).ty.Contents (Elt F)) :
    (TRef.of main_c : TRef sig ⟨S_, .i32⟩).ofBuf v = v :=
  eq_of_heq (Cert.TypedRead.ofBuf_heq (TRef.of main_c : TRef sig ⟨S_, .i32⟩) v)

/-- The variance, stored at the type the selection produces it at, is itself. -/
theorem toBuf_v14 (v : (⟨S1024, .f32⟩ : BufTy).Contents (Elt F)) :
    (TRef.of main_v14 : TRef sig ⟨S1024, .f32⟩).toBuf v = v :=
  eq_of_heq (Cert.TypedRead.toBuf_heq (TRef.of main_v14 : TRef sig ⟨S1024, .f32⟩) v)

/-! ## What the buffers hold after the line -/

set_option maxRecDepth 8192 in
/-- The result buffer after the fifty-six operations is the composed term of the arguments' contents: each operation's
    result read at its own buffer, every other buffer kept; inside the outlined functions a value stored and read back
    through the same typed reference is itself, and at the three shared buffers the transport is the identity. What is
    left is the composition written out. -/
theorem out_eq (V : Valuation τ sig (Elt Ideal)) :
    after (ops (F := Ideal)) V (main_v29 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  simp only [Cert.TypedRead.ofBuf_toBuf, ofBuf_v10, ofBuf_c, toBuf_v14]
  unfold RefTerm.out RefTerm.y RefTerm.meanV RefTerm.varV RefTerm.centred RefTerm.count
  rfl

/-! No operation writes an argument's buffer. -/

theorem arg0_eq (V : Valuation τ sig (Elt F)) :
    after (ops (F := F)) V (main_arg0 : DevRef τ sig) = V (main_arg0 : DevRef τ sig) := by
  after_results_simp
theorem arg1_eq (V : Valuation τ sig (Elt F)) :
    after (ops (F := F)) V (main_arg1 : DevRef τ sig) = V (main_arg1 : DevRef τ sig) := by
  after_results_simp
theorem arg2_eq (V : Valuation τ sig (Elt F)) :
    after (ops (F := F)) V (main_arg2 : DevRef τ sig) = V (main_arg2 : DevRef τ sig) := by
  after_results_simp
theorem arg3_eq (V : Valuation τ sig (Elt F)) :
    after (ops (F := F)) V (main_arg3 : DevRef τ sig) = V (main_arg3 : DevRef τ sig) := by
  after_results_simp
theorem arg4_eq (V : Valuation τ sig (Elt F)) :
    after (ops (F := F)) V (main_arg4 : DevRef τ sig) = V (main_arg4 : DevRef τ sig) := by
  after_results_simp
theorem arg5_eq (V : Valuation τ sig (Elt F)) :
    after (ops (F := F)) V (main_arg5 : DevRef τ sig) = V (main_arg5 : DevRef τ sig) := by
  after_results_simp
theorem arg6_eq (V : Valuation τ sig (Elt F)) :
    after (ops (F := F)) V (main_arg6 : DevRef τ sig) = V (main_arg6 : DevRef τ sig) := by
  after_results_simp

/-- On every device, from any memory with zero counters: every weakly fair execution of the program terminates with
    the result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
          = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v29).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.RefValue.lean ====
/-
  The reference's composed expression, read entry by entry, is the specification's result with the variance taken as the
  mean of the squared deviations. Each product contracts the second axis of both operands, so at row `b`, column `o` it
  is a sum over `i` of left `(b, i)` times right `(o, i)`; the bias term is the row sum of the bias matrix at `o`; the
  column mean is the column sum over 4096.0; the variance's guard compares 4096.0 - 0 with 0 and is true, so the variance
  is the column sum of the squared deviations over 4096.0; and the last line is the affine normalisation.
-/
import proofs.«112312_j22634477650637_2_alg».proof.Proof.RefTerm
import proofs.«112312_j22634477650637_2_alg».proof.Proof.Spec
import proofs.«112312_j22634477650637_2_alg».proof.Proof.LibHostRead
import Idealize.ShloMosaic.PureOps.Ideal.Laws
import Idealize.ShloMosaic.Lib.Pipeline.Value
import Idealize.ShloMosaic.Lib.ValueIdx

noncomputable section

open scoped BigOperators

namespace Cert.ReferenceIdeal.RefValue

open Idealize.ShloMosaic Idealize.SL.Sem Idealize.ShloMosaic.ValueIdx
open Facts₀ Facts
open Cert.PolyNorm (nRows eps)

/-! ## General reads at rank 2 -/

/-- A host product contracting axis 1 of the left operand with axis 1 of the right one, read at `(p, q)`. -/
theorem dotGeneral_ix2_bb_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    Host.dotGeneral D prec x w (ix2 p q) = ∑ d : Fin k, x (ix2 p d) * w (ix2 q d) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

/-- A host sum over axis 1 from the zero word, read at `q`: the row sum. -/
theorem reduceAdd_axis1_apply {a b : ℕ} (h' : (⟨2, ![a, b]⟩ : Shape).ReducesTo [1] ⟨1, ![a]⟩)
    (hu : 0 < (⟨0, ![]⟩ : Shape).numel) (x : FVec Ideal ⟨2, ![a, b]⟩ .f32) (q : Fin a) :
    Host.reduceAdd (F := Ideal) x (constant (F := Ideal) ⟨0, ![]⟩ .f32 0x00000000#32) h' hu (ix1 q)
      = ∑ d : Fin b, x (ix2 q d) := by
  have h : (⟨2, ![a, b]⟩ : Shape).Reduces [1] ⟨1, ![a]⟩ := ⟨h'.1, Nat.one_pos, h'.2⟩
  show Ideal.hostReduceAdd h' x (Ideal.ofBits .f32 0x00000000#32) (ix1 q) = _
  rw [Ideal.hostReduceAdd_single h' h, Ideal.ofBits_zero_f32, zero_add]
  refine Finset.sum_congr rfl fun d _ => congrArg x (funext fun ax => Fin.ext ?_)
  match ax with
  | ⟨0, _⟩ => rfl
  | ⟨1, _⟩ => rfl

/-- A host sum over axis 0 from the zero word, read at `q`: the column sum. -/
theorem reduceAdd_axis0_apply {a b : ℕ} (h' : (⟨2, ![a, b]⟩ : Shape).ReducesTo [0] ⟨1, ![b]⟩)
    (hu : 0 < (⟨0, ![]⟩ : Shape).numel) (x : FVec Ideal ⟨2, ![a, b]⟩ .f32) (q : Fin b) :
    Host.reduceAdd (F := Ideal) x (constant (F := Ideal) ⟨0, ![]⟩ .f32 0x00000000#32) h' hu (ix1 q)
      = ∑ d : Fin a, x (ix2 d q) := by
  have h : (⟨2, ![a, b]⟩ : Shape).Reduces [0] ⟨1, ![b]⟩ := ⟨h'.1, Nat.one_pos, h'.2⟩
  show Ideal.hostReduceAdd h' x (Ideal.ofBits .f32 0x00000000#32) (ix1 q) = _
  rw [Ideal.hostReduceAdd_single h' h, Ideal.ofBits_zero_f32, zero_add]
  refine Finset.sum_congr rfl fun d _ => congrArg x (funext fun ax => Fin.ext ?_)
  match ax with
  | ⟨0, _⟩ => rfl
  | ⟨1, _⟩ => rfl

/-- A vector of 1024 entries laid as a row `[1, 1024]` reads its own entry. -/
theorem row_of_vec_apply {α : Type} (h : S1024.BroadcastsInDim S1x1024 ![1]) (x : S1024.Idx → α) (z : Fin 1)
    (q : Fin 1024) : broadcastInDim S1x1024 ![1] h x (ix2 z q) = x (ix1 q) := by
  refine broadcastInDim_apply _ h x _ _ fun a => ?_
  match a with
  | ⟨0, _⟩ => rfl

/-- A row `[1, 1024]` spread down 4096 rows reads the row's entry in the same column. -/
theorem rows_of_row_apply {α : Type} (h : S1x1024.BroadcastsInDim S4096x1024 ![0, 1]) (x : S1x1024.Idx → α)
    (p : Fin 4096) (q : Fin 1024) : broadcastInDim S4096x1024 ![0, 1] h x (ix2 p q) = x (ix2 0 q) := by
  refine broadcastInDim_apply _ h x _ _ fun a => ?_
  match a with
  | ⟨0, _⟩ => rfl
  | ⟨1, _⟩ => rfl

/-! ## The two words -/

/-- The word 0x45800000 denotes the real number 4096. -/
theorem nRows_eq : Cert.PolyNorm.nRows = ((4096 : ℝ) : EReal) := by
  unfold Cert.PolyNorm.nRows
  simp [Ideal.ofBits, Ideal.ieee, -EReal.coe_mul]
  norm_num

theorem nRows_pos : (0 : EReal) < Cert.PolyNorm.nRows := by
  rw [nRows_eq]
  exact EReal.coe_pos.mpr (by norm_num)

/-- The variance's divisor, 4096.0 minus the float of the integer zero, is 4096.0. -/
theorem count_apply : RefTerm.count ix0 = nRows := by
  show Ideal.ofBits .f32 0x45800000#32 - (((0#32 : BitVec 32).toInt : ℝ) : EReal) = nRows
  have h0 : (0#32 : BitVec 32).toInt = 0 := by decide
  rw [h0]
  simp [Cert.PolyNorm.nRows]

/-! ## The stages -/

/-- The layer before normalisation, entry by entry. -/
theorem y_apply (x : FVec Ideal S4096x1024 .f32) (c1 c2 c3 bias : FVec Ideal S1024x1024 .f32) (b : Fin 4096)
    (o : Fin 1024) : RefTerm.y x c1 c2 c3 bias (ix2 b o) = Cert.PolyNorm.Y x c1 c2 c3 bias b o := by
  unfold RefTerm.y Cert.PolyNorm.Y
  rw [addf_apply, addf_apply, addf_apply]
  rw [dotGeneral_ix2_bb_apply _ rfl rfl rfl rfl rfl rfl, dotGeneral_ix2_bb_apply _ rfl rfl rfl rfl rfl rfl,
    dotGeneral_ix2_bb_apply _ rfl rfl rfl rfl rfl rfl, Cert.HostRead.bias_rows_apply, reduceAdd_axis1_apply]
  rfl

/-- The column mean, entry by entry. -/
theorem meanV_apply (y : FVec Ideal S4096x1024 .f32) (Yf : Fin 4096 → Fin 1024 → EReal)
    (hy : ∀ b o, y (ix2 b o) = Yf b o) (o : Fin 1024) : RefTerm.meanV y (ix1 o) = Cert.PolyNorm.mean Yf o := by
  unfold RefTerm.meanV Cert.PolyNorm.mean
  show Ideal.div (Host.reduceAdd (F := Ideal) y _ _ _ (ix1 o)) (broadcastInDim (s := S_) S1024 ![] bcast_S_S1024 _ (ix1 o)) = _
  rw [reduceAdd_axis0_apply, Cert.HostRead.scalar_bcast_apply]
  exact congrArg (Ideal.div · nRows) (Finset.sum_congr rfl fun b _ => hy b o)

/-- The deviations from the column mean, entry by entry. -/
theorem centred_apply (y : FVec Ideal S4096x1024 .f32) (Yf : Fin 4096 → Fin 1024 → EReal)
    (hy : ∀ b o, y (ix2 b o) = Yf b o) (b : Fin 4096) (o : Fin 1024) :
    RefTerm.centred y (ix2 b o) = Yf b o - Cert.PolyNorm.mean Yf o := by
  unfold RefTerm.centred Cert.PolyNorm.mean
  rw [subf_apply, rows_of_row_apply]
  show y (ix2 b o) - Ideal.div (broadcastInDim (s := S1024) S1x1024 ![1] bcast_S1024_S1x1024_1 _ (ix2 0 o))
      (broadcastInDim (s := S_) S1x1024 ![] bcast_S_S1x1024 _ (ix2 0 o)) = _
  rw [row_of_vec_apply, reduceAdd_axis0_apply, Cert.HostRead.scalar_bcast_apply, hy b o]
  exact congrArg (fun s => Yf b o - Ideal.div s nRows) (Finset.sum_congr rfl fun b' _ => hy b' o)

/-- The column variance, entry by entry: the guard is true, so it is the mean of the squared deviations. -/
theorem varV_apply (y : FVec Ideal S4096x1024 .f32) (Yf : Fin 4096 → Fin 1024 → EReal)
    (hy : ∀ b o, y (ix2 b o) = Yf b o) (o : Fin 1024) : RefTerm.varV y (ix1 o) = Cert.PolyNorm.varDev Yf o := by
  unfold RefTerm.varV
  rw [select_apply]
  have hc : broadcastInDim S1024 ![] bcast_S_S1024
      (cmpf .ogt RefTerm.count (constant (F := Ideal) S_ .f32 0x00000000#32)) (ix1 o) = 1#1 := by
    rw [Cert.HostRead.scalar_bcast_apply, cmpf_apply, count_apply]
    show Ideal.cmp .ogt nRows (Ideal.ofBits .f32 0x00000000#32) = 1#1
    rw [Ideal.ofBits_zero_f32]
    unfold Ideal.cmp
    simp [nRows_pos]
  rw [hc, select_one]
  show Ideal.div (Host.reduceAdd (F := Ideal) _ _ _ _ (ix1 o)) (broadcastInDim (s := S_) S1024 ![] bcast_S_S1024 _ (ix1 o)) = _
  rw [reduceAdd_axis0_apply, Cert.HostRead.scalar_bcast_apply, count_apply]
  unfold Cert.PolyNorm.varDev
  refine congrArg (Ideal.div · nRows) (Finset.sum_congr rfl fun b _ => ?_)
  rw [mulf_apply, centred_apply y Yf hy b o]

/-- The specification's result at row `b`, column `o`. -/
theorem outDev_ix2 (x : FVec Ideal S4096x1024 .f32) (c1 c2 c3 bias : FVec Ideal S1024x1024 .f32)
    (gamma beta : FVec Ideal S1024 .f32) (b : Fin 4096) (o : Fin 1024) :
    Cert.PolyNorm.outDev x c1 c2 c3 bias gamma beta (ix2 b o)
      = Cert.PolyNorm.normalize (Cert.PolyNorm.Y x c1 c2 c3 bias) (Cert.PolyNorm.mean (Cert.PolyNorm.Y x c1 c2 c3 bias))
          (Cert.PolyNorm.varDev (Cert.PolyNorm.Y x c1 c2 c3 bias)) gamma beta b o := rfl

/-- The reciprocal square root of the variance plus the small word, entry by entry. -/
theorem rsqrt_apply (y : FVec Ideal S4096x1024 .f32) (Yf : Fin 4096 → Fin 1024 → EReal)
    (hy : ∀ b o, y (ix2 b o) = Yf b o) (o : Fin 1024) :
    Host.rsqrt (F := Ideal) (addf (RefTerm.varV y)
        (broadcastInDim S1024 ![] bcast_S_S1024 (constant (F := Ideal) S_ .f32 0x3727C5AC#32))) (ix1 o)
      = Ideal.rsqrt (Cert.PolyNorm.varDev Yf o + eps) := by
  show Ideal.rsqrt (RefTerm.varV y (ix1 o) + broadcastInDim (s := S_) S1024 ![] bcast_S_S1024 _ (ix1 o)) = _
  rw [Cert.HostRead.scalar_bcast_apply, varV_apply y Yf hy o]
  rfl

/-- The reference's composed expression is the specification's result, variance by deviations. -/
theorem out_eq (x : FVec Ideal S4096x1024 .f32) (c1 c2 c3 bias : FVec Ideal S1024x1024 .f32)
    (gamma beta : FVec Ideal S1024 .f32) :
    RefTerm.out x c1 c2 c3 bias gamma beta = Cert.PolyNorm.outDev x c1 c2 c3 bias gamma beta := by
  funext j
  obtain ⟨b, o, rfl⟩ : ∃ (b : Fin 4096) (o : Fin 1024), j = ix2 b o := ⟨j 0, j 1, eq_ix2 j⟩
  have hy : ∀ b o, RefTerm.y x c1 c2 c3 bias (ix2 b o) = Cert.PolyNorm.Y x c1 c2 c3 bias b o :=
    fun b o => y_apply x c1 c2 c3 bias b o
  rw [outDev_ix2]
  unfold RefTerm.out Cert.PolyNorm.normalize
  rw [addf_apply, mulf_apply, mulf_apply, subf_apply]
  rw [Cert.HostRead.bias_rows_apply, Cert.HostRead.bias_rows_apply, Cert.HostRead.bias_rows_apply,
    Cert.HostRead.bias_rows_apply]
  rw [rsqrt_apply _ _ hy o, meanV_apply _ _ hy o, hy b o]

end Cert.ReferenceIdeal.RefValue

end
-- ==== Proof.lean ====
/-
  The kernel and its reference compute one array of extended reals.

  Both programs form, for an input x : [4096, 1024], weights c1 c2 c3 : [1024, 1024] and a bias matrix,

      y (b, o) = sum_i x(b,i) c1(o,i) + sum_i x(b,i)^2 c2(o,i) + sum_i x(b,i)^3 c3(o,i) + sum_i bias(o,i)

  and normalise each column o of y over its 4096 rows: (y - mean) * rsqrt (var + eps) * gamma + beta. Over the extended
  reals a change of float format is the identity and a matrix product is the plain sum of products, so the kernel's three
  products against the transposed weights are the reference's three contractions, and its bias row is the reference's
  row sums. The kernel writes y in 8 tiles of 512 rows and, per tile, the column sums of y and of y*y; after the
  call the host adds the 8 tile sums, divides by 4096 and takes the variance as mean of squares minus squared mean
  (`Cert.PolyNorm.outTile`). The reference takes the variance as the mean of the squared deviations from the mean
  (`Cert.PolyNorm.outDev`). The two agree when every y(b,o) is a real number, which the precondition gives: every
  argument entry is finite, and y is a finite sum of products of them (`Cert.PolyNorm.outTile_eq_outDev`).

  The modules: Spec (the functions above), Algebra (the variance identity), FiniteInputs (the precondition read entry
  by entry), KerPay / KerArrays / KerTail / KerRun (the kernel's stored values at an index, the three result arrays
  of the call as whole-array functions, the host lines after the call, and the kernel program's run), RefTerm / RefRun /
  RefValue (the reference's composed term, its run, and the term read at an index).
-/
import proofs.«112312_j22634477650637_2_alg».proof.Defs
import proofs.«112312_j22634477650637_2_alg».proof.Proof.Gen.Kernel
import proofs.«112312_j22634477650637_2_alg».proof.Proof.Gen.Kernel.Skeleton
import proofs.«112312_j22634477650637_2_alg».proof.Proof.Gen.Kernel.Launch
import proofs.«112312_j22634477650637_2_alg».proof.Proof.Gen.Kernel.Points
import proofs.«112312_j22634477650637_2_alg».proof.Proof.Gen.Kernel.Frame
import proofs.«112312_j22634477650637_2_alg».proof.Proof.Gen.KernelIdeal
import proofs.«112312_j22634477650637_2_alg».proof.Proof.Gen.KernelIdeal.Skeleton
import proofs.«112312_j22634477650637_2_alg».proof.Proof.Gen.KernelIdeal.Launch
import proofs.«112312_j22634477650637_2_alg».proof.Proof.Gen.KernelIdeal.Points
import proofs.«112312_j22634477650637_2_alg».proof.Proof.Gen.KernelIdeal.Frame
import proofs.«112312_j22634477650637_2_alg».proof.Proof.Gen.ReferenceIdeal
import proofs.«112312_j22634477650637_2_alg».proof.Proof.Gen.Pre_finite_inputs
import proofs.«112312_j22634477650637_2_alg».proof.Proof.Spec
import proofs.«112312_j22634477650637_2_alg».proof.Proof.Algebra
import proofs.«112312_j22634477650637_2_alg».proof.Proof.FiniteInputs
import proofs.«112312_j22634477650637_2_alg».proof.Proof.KerArrays
import proofs.«112312_j22634477650637_2_alg».proof.Proof.KerTail
import proofs.«112312_j22634477650637_2_alg».proof.Proof.KerRun
import proofs.«112312_j22634477650637_2_alg».proof.Proof.RefRun
import proofs.«112312_j22634477650637_2_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.RefRun.run m ρ)

/-- The idealized kernel is the kernel's own text read at the exact values: nothing was rewritten. -/
theorem preserves : Cert.preserves_Kernel_KernelIdeal := trivial

/-- The kernel's run ends at the tile-sum form of the normalised array, the reference's at the deviation form, and on
    finite arguments the two forms are one array. -/
theorem algebraic : Cert.algebraic_KernelIdeal_ReferenceIdeal := by
  intro m ρ m' ρ' hpre hagree
  refine ⟨_, Cert.KernelIdeal.Run.run_of Cert.KernelIdeal.Arrays.final5 Cert.KernelIdeal.Arrays.final6
    Cert.KernelIdeal.Arrays.final7 Cert.KernelIdeal.Tail.tail_eq m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, -, -⟩ := Cert.Pre_finite_inputs.Finite.allReal_of_pre _ _ _ _ _ _ _ (hpre c)
  rw [Cert.ReferenceIdeal.RefValue.out_eq, (hagree c).1, (hagree c).2.1, (hagree c).2.2.1, (hagree c).2.2.2.1,
    (hagree c).2.2.2.2.1, (hagree c).2.2.2.2.2.1, (hagree c).2.2.2.2.2.2]
  exact (Cert.PolyNorm.outTile_eq_outDev _ _ _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
